-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S256x1024 : Shape := ⟨2, ![256, 1024]⟩
abbrev S1x1024 : Shape := ⟨2, ![1, 1024]⟩
abbrev S64x2048x32 : Shape := ⟨3, ![64, 2048, 32]⟩
abbrev S2x32x2048x32 : Shape := ⟨4, ![2, 32, 2048, 32]⟩
abbrev S2x2048x32x32 : Shape := ⟨4, ![2, 2048, 32, 32]⟩
abbrev S2x2048x2048 : Shape := ⟨3, ![2, 2048, 2048]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S512x1024 : Shape := ⟨2, ![512, 1024]⟩
abbrev S2048x1024 : Shape := ⟨2, ![2048, 1024]⟩
abbrev S512x2048 : Shape := ⟨2, ![512, 2048]⟩
abbrev S8x2048x32 : Shape := ⟨3, ![8, 2048, 32]⟩
abbrev S8x32x32 : Shape := ⟨3, ![8, 32, 32]⟩

abbrev nBuf : Space → Nat
  | .hbm => 29
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S64x2048x32, .bf16⟩
  | .hbm, ⟨16, _⟩ => ⟨S64x2048x32, .bf16⟩
  | .hbm, ⟨17, _⟩ => ⟨S64x2048x32, .bf16⟩
  | .hbm, ⟨18, _⟩ => ⟨S2x32x2048x32, .bf16⟩
  | .hbm, ⟨19, _⟩ => ⟨S2x2048x32x32, .bf16⟩
  | .hbm, ⟨20, _⟩ => ⟨S2x2048x1024, .bf16⟩
  | .hbm, ⟨21, _⟩ => ⟨S2x32x2048x32, .bf16⟩
  | .hbm, ⟨22, _⟩ => ⟨S2x2048x32x32, .bf16⟩
  | .hbm, ⟨23, _⟩ => ⟨S2x2048x1024, .bf16⟩
  | .hbm, ⟨24, _⟩ => ⟨S2x2048x2048, .f32⟩
  | .hbm, ⟨25, _⟩ => ⟨S64x2048x32, .f32⟩
  | .hbm, ⟨26, _⟩ => ⟨S4096x1024, .f32⟩
  | .hbm, ⟨27, _⟩ => ⟨S4096x1024, .f32⟩
  | .hbm, ⟨28, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x512x2048, .f32⟩
  | .local _ .vmem, ⟨19, _⟩ => ⟨S1x512x2048, .f32⟩
  | .local _ .vmem, ⟨20, _⟩ => ⟨S8x2048x32, .bf16⟩
  | .local _ .vmem, ⟨21, _⟩ => ⟨S8x2048x32, .bf16⟩
  | .local _ .vmem, ⟨22, _⟩ => ⟨S8x2048x32, .bf16⟩
  | .local _ .vmem, ⟨23, _⟩ => ⟨S8x2048x32, .bf16⟩
  | .local _ .vmem, ⟨24, _⟩ => ⟨S8x2048x32, .bf16⟩
  | .local _ .vmem, ⟨25, _⟩ => ⟨S8x2048x32, .bf16⟩
  | .local _ .vmem, ⟨26, _⟩ => ⟨S8x2048x32, .f32⟩
  | .local _ .vmem, ⟨27, _⟩ => ⟨S8x2048x32, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024, .f32⟩
  | .local _ .vmem, ⟨32, _⟩ => ⟨S1024x1024, .f32⟩
  | .local _ .vmem, ⟨33, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x2048x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x2048x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x2048x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x2048x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S2x2048x1024_S4096x1024 : S2x2048x1024.ShapeCasts S4096x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  shapeCasts_S4096x1024_S64x2048x32 : S4096x1024.ShapeCasts S64x2048x32
  shapeCasts_S64x2048x32_S2x32x2048x32 : S64x2048x32.ShapeCasts S2x32x2048x32
  transposes_S2x32x2048x32_S2x2048x32x32_0_2_1_3 : S2x32x2048x32.Transposes [0, 2, 1, 3] S2x2048x32x32
  shapeCasts_S2x2048x32x32_S2x2048x1024 : S2x2048x32x32.ShapeCasts S2x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S8x2048x32_S8x2048x32_0_0_0 : ∀ a, (![0, 0, 0] : Fin 3 → Nat) a + S8x2048x32.size a ≤ S8x2048x32.size a
  h_S8x2048x32 : 0 < S8x2048x32.numel
  shapeCasts_S8x2048x32_S8x2048x32 : S8x2048x32.ShapeCasts S8x2048x32
  shapeCasts_S64x2048x32_S4096x1024 : S64x2048x32.ShapeCasts S4096x1024
  shapeCasts_S1024x1024_S1024x1024 : S1024x1024.ShapeCasts S1024x1024
  broadcasts_S1x1024_S1024x1024 : S1x1024.Broadcasts S1024x1024
  shapeCasts_S4096x1024_S2x2048x1024 : S4096x1024.ShapeCasts S2x2048x1024
  dot_S256x1024_S1024x1024_S256x1024_1_1_0_0_n_n_wf : DotDims.WF S256x1024 S1024x1024 S256x1024 [1] [1] [0] [0] [] []
  dot_S512x1024_S2048x1024_S512x2048_1_1_0_0_n_n_wf : DotDims.WF S512x1024 S2048x1024 S512x2048 [1] [1] [0] [0] [] []
  dot_S8x2048x32_S8x2048x32_S8x32x32_1_1_2_2_0_0_wf : DotDims.WF S8x2048x32 S8x2048x32 S8x32x32 [1] [1] [2] [2] [0] [0]
  dot_S8x2048x32_S8x32x32_S8x2048x32_2_1_1_2_0_0_wf : DotDims.WF S8x2048x32 S8x32x32 S8x2048x32 [2] [1] [1] [2] [0] [0]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .bf16 = 32 ∨ (Rect.block (s := S4096x1024) S256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .bf16 = 32 ∨ (Rect.block (s := S4096x1024) S256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .bf16 = 32 ∨ (Rect.block (s := S4096x1024) S256x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .bf16 = 32 ∨ (Rect.block (s := S2x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x1024.size a
  hwx1_1 : ∀ i : grid1.Coords, EltTy.bits .bf16 = 32 ∨ (Rect.block (s := S2x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S2x2048x2048.size a
  hwx1_2 : ∀ i : grid1.Coords, EltTy.bits .f32 = 32 ∨ (Rect.block (s := S2x2048x2048) S1x512x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x2048x32.size a ≤ S64x2048x32.size a
  hwx2_0 : ∀ i : grid2.Coords, EltTy.bits .bf16 = 32 ∨ (Rect.block (s := S64x2048x32) S8x2048x32.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x2048x32.size a ≤ S64x2048x32.size a
  hwx2_1 : ∀ i : grid2.Coords, EltTy.bits .bf16 = 32 ∨ (Rect.block (s := S64x2048x32) S8x2048x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x2048x32.size a ≤ S64x2048x32.size a
  hwx2_2 : ∀ i : grid2.Coords, EltTy.bits .bf16 = 32 ∨ (Rect.block (s := S64x2048x32) S8x2048x32.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x2048x32.size a ≤ S64x2048x32.size a
  hwx2_3 : ∀ i : grid2.Coords, EltTy.bits .f32 = 32 ∨ (Rect.block (s := S64x2048x32) S8x2048x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x1024.size a
  hwx3_0 : ∀ i : grid3.Coords, EltTy.bits .f32 = 32 ∨ (Rect.block (s := S4096x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .f32 = 32 ∨ (Rect.block (s := S1024x1024) S1024x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x1024.size a
  hwx3_3 : ∀ i : grid3.Coords, EltTy.bits .f32 = 32 ∨ (Rect.block (s := S4096x1024) S1024x1024.size (cc3_transform_3 i) (hinb3_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S8x2048x32_S8x2048x32_S8x32x32_1_1_2_2_0_0 : DotDims S8x2048x32 S8x2048x32 S8x32x32 where
  lhsContracting := [1]
  rhsContracting := [1]
  lhsNonContracting := [2]
  rhsNonContracting := [2]
  lhsBatch := [0]
  rhsBatch := [0]
  wf := dot_S8x2048x32_S8x2048x32_S8x32x32_1_1_2_2_0_0_wf
def dot_S8x2048x32_S8x32x32_S8x2048x32_2_1_1_2_0_0 : DotDims S8x2048x32 S8x32x32 S8x2048x32 where
  lhsContracting := [2]
  rhsContracting := [1]
  lhsNonContracting := [1]
  rhsNonContracting := [2]
  lhsBatch := [0]
  rhsBatch := [0]
  wf := dot_S8x2048x32_S8x32x32_S8x2048x32_2_1_1_2_0_0_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_2) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S8x2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S8x2048x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S8x2048x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S8x2048x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S64x2048x32 : Shape := ⟨3, ![64, 2048, 32]⟩
abbrev S64x2048x2048 : Shape := ⟨3, ![64, 2048, 2048]⟩
abbrev S2x32x2048x2048 : Shape := ⟨4, ![2, 32, 2048, 2048]⟩
abbrev S_ : Shape := ⟨0, ![]⟩
abbrev S2x2048x2048 : Shape := ⟨3, ![2, 2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S64x2048x32, .f32⟩
  | .hbm, ⟨18, _⟩ => ⟨S1024x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S64x2048x32, .f32⟩
  | .hbm, ⟨24, _⟩ => ⟨S1024x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S64x2048x32, .f32⟩
  | .hbm, ⟨30, _⟩ => ⟨S64x2048x2048, .f32⟩
  | .hbm, ⟨31, _⟩ => ⟨S64x2048x32, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S2x2048x1024, .f32⟩
  | .hbm, ⟨39, _⟩ => ⟨S2x32x2048x2048, .f32⟩
  | .hbm, ⟨40, _⟩ => ⟨S_, .f32⟩
  | .hbm, ⟨41, _⟩ => ⟨S2x2048x2048, .f32⟩
  | .hbm, ⟨42, _⟩ => ⟨S_, .f32⟩
  | .hbm, ⟨43, _⟩ => ⟨S2x2048x2048, .f32⟩
  | .hbm, ⟨44, _⟩ => ⟨S2x2048x2048, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_cst_0 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  shapeCasts_S2x2048x1024_S4096x1024 : S2x2048x1024.ShapeCasts S4096x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S64x2048x32 : S4096x1024.ShapeCasts S64x2048x32
  shapeCasts_S64x2048x32_S4096x1024 : S64x2048x32.ShapeCasts S4096x1024
  shapeCasts_S4096x1024_S2x2048x1024 : S4096x1024.ShapeCasts S2x2048x1024
  shapeCasts_S64x2048x2048_S2x32x2048x2048 : S64x2048x2048.ShapeCasts S2x32x2048x2048
  reducesTo_S2x32x2048x2048_S2x2048x2048_d1 : S2x32x2048x2048.ReducesTo [1] S2x2048x2048
  h_S_ : 0 < S_.numel
  bcast_S_S2x2048x2048 : S_.BroadcastsInDim S2x2048x2048 (![] : Fin 0 → Fin S2x2048x2048.rank)
  dot_S4096x1024_S1024x1024_S4096x1024_1_0_0_1_n_n_wf : DotDims.WF S4096x1024 S1024x1024 S4096x1024 [1] [0] [0] [1] [] []
  dot_S64x2048x32_S64x2048x32_S64x2048x2048_2_2_1_1_0_0_wf : DotDims.WF S64x2048x32 S64x2048x32 S64x2048x2048 [2] [2] [1] [1] [0] [0]
  dot_S64x2048x2048_S64x2048x32_S64x2048x32_2_1_1_2_0_0_wf : DotDims.WF S64x2048x2048 S64x2048x32 S64x2048x32 [2] [1] [1] [2] [0] [0]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S64x2048x32_S64x2048x32_S64x2048x2048_2_2_1_1_0_0 : DotDims S64x2048x32 S64x2048x32 S64x2048x2048 where
  lhsContracting := [2]
  rhsContracting := [2]
  lhsNonContracting := [1]
  rhsNonContracting := [1]
  lhsBatch := [0]
  rhsBatch := [0]
  wf := dot_S64x2048x32_S64x2048x32_S64x2048x2048_2_2_1_1_0_0_wf
def dot_S64x2048x2048_S64x2048x32_S64x2048x32_2_1_1_2_0_0 : DotDims S64x2048x2048 S64x2048x32 S64x2048x32 where
  lhsContracting := [2]
  rhsContracting := [1]
  lhsNonContracting := [1]
  rhsNonContracting := [2]
  lhsBatch := [0]
  rhsBatch := [0]
  wf := dot_S64x2048x2048_S64x2048x32_S64x2048x32_2_1_1_2_0_0_wf

class Facts : Prop extends Facts₀ where

variable [Facts]
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.AttentionSpec.lean ====
/-
  The layer both programs compute, as functions of arrays of extended reals, and the laws that join their two spellings.

  Tokens are the 4096 = 2·2048 rows of a [4096,1024] matrix.  An affine map `x·Wᵀ + b` sends a token matrix to a token
  matrix: entry (p, f) is the sum over k of x(p,k)·W(f,k), plus b(f).  The three projections Q, K, V of the SAME token
  matrix are then read as [64, 2048, 32] arrays through the raw row-major view of their flat contents (the view is
  applied to equal arrays on both sides and is never opened here).

  Two results are formed from those views:

  * the unnormalised attention  core(Q,K,V)(g,t,e) = Σ_s (Σ_d Q(g,t,d)·K(g,s,d)) · V(g,s,e), which one program computes in
    that order and the other as Σ_d Q(g,t,d)·(Σ_s K(g,s,d)·V(g,s,e)).  The two orders agree when every entry is a real
    number (distributivity and exchanging the two sums: both fail at infinities, so finiteness is used here);
  * the head-averaged scores  mean(Q,K)(b,t,s) = (Σ_H Σ_d Q(32b+H,t,d)·K(32b+H,s,d)) / 32, which one program computes as
    one inner product of length 1024 = 32·32 over the lanes e = 32·H + d, scaled by the float 2⁻⁵, and the other head by
    head, summed from 0 and divided by 32.  Re-indexing a finite sum and x·2⁻⁵ = x/32 hold for all extended reals.
-/
import Mathlib.Tactic
import Idealize.ShloMosaic.PureOps.Ideal
import Idealize.ShloMosaic.PureOps.Ideal.Laws
import Idealize.ShloMosaic.Lib.ValueIdx
import proofs.«122323_j2680059593303_2_alg».proof.Proof.LibSumAssoc

noncomputable section

namespace Cert.Attention

open Idealize.ShloMosaic Idealize.ShloMosaic.ValueIdx

/-- Token matrices, weight matrices, bias vectors, per-head arrays, score arrays. -/
abbrev Tok : Shape := ⟨2, ![4096, 1024]⟩
abbrev Wt : Shape := ⟨2, ![1024, 1024]⟩
abbrev Bs : Shape := ⟨1, ![1024]⟩
abbrev Hd : Shape := ⟨3, ![64, 2048, 32]⟩
abbrev Sc : Shape := ⟨3, ![2, 2048, 2048]⟩
abbrev Cat : Shape := ⟨3, ![2, 2048, 1024]⟩

/-! ## The affine map -/

/-- Entry (p, f) of x·Wᵀ + b. -/
def affineAt (x : Tok.Idx → EReal) (W : Wt.Idx → EReal) (b : Bs.Idx → EReal) (p : Fin 4096) (f : Fin 1024) : EReal :=
  (∑ k : Fin 1024, x (ix2 p k) * W (ix2 f k)) + b (ix1 f)

/-- x·Wᵀ + b as an array. -/
def affine (x : Tok.Idx → EReal) (W : Wt.Idx → EReal) (b : Bs.Idx → EReal) : Tok.Idx → EReal :=
  fun i => affineAt x W b (i 0) (i 1)

theorem affine_ix2 (x : Tok.Idx → EReal) (W : Wt.Idx → EReal) (b : Bs.Idx → EReal) (p : Fin 4096) (f : Fin 1024) :
    affine x W b (ix2 p f) = affineAt x W b p f := rfl

/-! ## The unnormalised attention -/

/-- Entry (g, t, e): the values of chunk g weighted by the scores of row t, the sum over keys taken innermost. -/
def coreAt (Q K V : Hd.Idx → EReal) (g : Fin 64) (t : Fin 2048) (e : Fin 32) : EReal :=
  ∑ d : Fin 32, Q (ix3 g t d) * ∑ s : Fin 2048, K (ix3 g s d) * V (ix3 g s e)

def core (Q K V : Hd.Idx → EReal) : Hd.Idx → EReal := fun i => coreAt Q K V (i 0) (i 1) (i 2)

theorem core_ix3 (Q K V : Hd.Idx → EReal) (g : Fin 64) (t : Fin 2048) (e : Fin 32) :
    core Q K V (ix3 g t e) = coreAt Q K V g t e := rfl

/-- The same entry with the scores formed first: the order in which the sum over keys is outermost. -/
def coreScoresFirstAt (Q K V : Hd.Idx → EReal) (g : Fin 64) (t : Fin 2048) (e : Fin 32) : EReal :=
  ∑ s : Fin 2048, (∑ d : Fin 32, Q (ix3 g t d) * K (ix3 g s d)) * V (ix3 g s e)

/-- The two orders agree on real entries. -/
theorem coreScoresFirstAt_eq (Q K V : Hd.Idx → EReal) (hQ : ∀ i, ∃ r : ℝ, Q i = r) (hK : ∀ i, ∃ r : ℝ, K i = r)
    (hV : ∀ i, ∃ r : ℝ, V i = r) (g : Fin 64) (t : Fin 2048) (e : Fin 32) :
    coreScoresFirstAt Q K V g t e = coreAt Q K V g t e :=
  ERealSums.sum_mul_sum_assoc (fun d : Fin 32 => Q (ix3 g t d)) (fun (d : Fin 32) (s : Fin 2048) => K (ix3 g s d))
    (fun s : Fin 2048 => V (ix3 g s e)) (fun d => hQ _) (fun d s => hK _) (fun s => hV _)

/-! ## The head-averaged scores -/

/-- Head H of batch element b is chunk 32·b + H. -/
def head (b : Fin 2) (H : Fin 32) : Fin 64 := ⟨b.val * 32 + H.val, by omega⟩

/-- Lane d of head H is position 32·H + d of the 1024 concatenated lanes. -/
def lane (H d : Fin 32) : Fin 1024 := ⟨H.val * 32 + d.val, by omega⟩

/-- Entry (b, t, s): the scores of query t against key s summed over the 32 heads of b, times the float 2⁻⁵. -/
def meanAt (Q K : Hd.Idx → EReal) (b : Fin 2) (t s : Fin 2048) : EReal :=
  (∑ H : Fin 32, ∑ d : Fin 32, Q (ix3 (head b H) t d) * K (ix3 (head b H) s d)) * Ideal.ofBits .f32 0x3D000000#32

def mean (Q K : Hd.Idx → EReal) : Sc.Idx → EReal := fun i => meanAt Q K (i 0) (i 1) (i 2)

theorem mean_ix3 (Q K : Hd.Idx → EReal) (b : Fin 2) (t s : Fin 2048) : mean Q K (ix3 b t s) = meanAt Q K b t s := rfl

/-- A sum over a·b positions is the sum over a blocks of the sums over a block's b positions. -/
theorem sum_pairs {β : Type*} [AddCommMonoid β] (a b : ℕ) (g : Fin (a * b) → β) :
    ∑ e : Fin (a * b), g e = ∑ H : Fin a, ∑ d : Fin b, g (finProdFinEquiv (H, d)) := by
  rw [← Equiv.sum_comp (finProdFinEquiv (m := a) (n := b)) g, Fintype.sum_prod_type]

/-- A sum over the 1024 lanes is the sum over heads of the sums over a head's 32 lanes. -/
theorem sum_lanes {β : Type*} [AddCommMonoid β] (g : Fin 1024 → β) :
    ∑ e : Fin 1024, g e = ∑ H : Fin 32, ∑ d : Fin 32, g (lane H d) := by
  refine (sum_pairs 32 32 g).trans (Finset.sum_congr rfl fun H _ => Finset.sum_congr rfl fun d _ => congrArg g (Fin.ext ?_))
  show d.val + 32 * H.val = H.val * 32 + d.val
  omega

/-- The float word 0x42000000 is 32. -/
theorem word_32 : Ideal.ofBits .f32 0x42000000#32 = ((32 : ℝ) : EReal) := by
  simp [Ideal.ofBits, Ideal.ieee, -EReal.coe_mul] <;> norm_num

/-- The float word 0x3D000000 is 1/32. -/
theorem word_inv32 : Ideal.ofBits .f32 0x3D000000#32 = ((1 / 32 : ℝ) : EReal) := by
  simp [Ideal.ofBits, Ideal.ieee, -EReal.coe_mul] <;> norm_num

/-- Multiplying by the float 2⁻⁵ is dividing by the float 32, on every extended real. -/
theorem scale_eq_div (x : EReal) :
    x * Ideal.ofBits .f32 0x3D000000#32 = Ideal.div x (Ideal.ofBits .f32 0x42000000#32) := by
  rw [word_32, word_inv32, Ideal.div_coe (by norm_num : (32 : ℝ) ≠ 0)]

/-- The mean with the scores as ONE inner product over the 1024 concatenated lanes of arrays Qc, Kc that hold lane
    32·H + d of token t of batch element b where Q, K hold lane d of row t of chunk 32·b + H. -/
theorem mean_of_concat (Q K : Hd.Idx → EReal) (Qc Kc : Cat.Idx → EReal)
    (hQ : ∀ (b : Fin 2) (t : Fin 2048) (H d : Fin 32), Qc (ix3 b t (lane H d)) = Q (ix3 (head b H) t d))
    (hK : ∀ (b : Fin 2) (t : Fin 2048) (H d : Fin 32), Kc (ix3 b t (lane H d)) = K (ix3 (head b H) t d))
    (b : Fin 2) (t s : Fin 2048) :
    (∑ e : Fin 1024, Qc (ix3 b t e) * Kc (ix3 b s e)) * Ideal.ofBits .f32 0x3D000000#32 = meanAt Q K b t s := by
  unfold meanAt
  rw [sum_lanes]
  refine congrArg (· * _) (Finset.sum_congr rfl fun H _ => Finset.sum_congr rfl fun d _ => ?_)
  rw [hQ, hK]

/-- The mean head by head: summed from the float zero and divided by the float 32. -/
theorem mean_of_heads (Q K : Hd.Idx → EReal) (b : Fin 2) (t s : Fin 2048) :
    Ideal.div (Ideal.ofBits .f32 0x00000000#32 + ∑ H : Fin 32, ∑ d : Fin 32, Q (ix3 (head b H) t d) * K (ix3 (head b H) s d))
      (Ideal.ofBits .f32 0x42000000#32) = meanAt Q K b t s := by
  unfold meanAt
  rw [Ideal.ofBits_zero_f32, zero_add, scale_eq_div]

end Cert.Attention

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibBiasRow.lean ====
/-
  A bias vector added to every row of a matrix, as a kernel spells it: the [n] vector is recast as a [1,n] row and the
  row is broadcast to [m,n].  Read at (p, f) the result is entry f of the vector, whatever the row p.
-/
import Idealize.ShloMosaic.Lib.Pipeline.Value
import Idealize.ShloMosaic.Lib.ValueIdx

namespace Cert.LibBiasRow

open Idealize.ShloMosaic Idealize.ShloMosaic.ValueIdx

variable {α : Type} {m n : Nat}

/-- The [n] vector recast as a [1,n] row, read at (u, f), is entry f. -/
theorem row_cast_apply (b : (⟨1, ![n]⟩ : Shape).Idx → α) (h : (⟨1, ![n]⟩ : Shape).ShapeCasts ⟨2, ![1, n]⟩) (u : Fin 1) (f : Fin n) :
    shapeCast ⟨2, ![1, n]⟩ b h (ix2 u f) = b (ix1 f) :=
  shapeCast_apply b h _ _ (by
    rw [Shape.rowMajor_val_one, Shape.rowMajor_val_two]
    have hu : u.val = 0 := by omega
    show f.val = u.val * n + f.val
    rw [hu, Nat.zero_mul, Nat.zero_add])

/-- The [1,n] row broadcast over m rows, read at (p, f), is the row at (0, f). -/
theorem row_spread_apply (r : (⟨2, ![1, n]⟩ : Shape).Idx → α) (h : (⟨2, ![1, n]⟩ : Shape).Broadcasts ⟨2, ![m, n]⟩) (p : Fin m) (f : Fin n) :
    broadcastTo ⟨2, ![m, n]⟩ r h (ix2 p f) = r (ix2 (0 : Fin 1) f) :=
  broadcastTo_apply r h _ _ (fun a => by
    match a with
    | ⟨0, _⟩ => show (0 : Nat) = if (1 : Nat) = 1 then 0 else _; rw [if_pos rfl]
    | ⟨1, _⟩ =>
      show f.val = if n = 1 then 0 else f.val
      split
      · have := f.isLt; omega
      · rfl)

/-- The two together: the bias row at (p, f) is entry f of the vector. -/
theorem bias_row_apply (b : (⟨1, ![n]⟩ : Shape).Idx → α) (h1 : (⟨1, ![n]⟩ : Shape).ShapeCasts ⟨2, ![1, n]⟩)
    (h2 : (⟨2, ![1, n]⟩ : Shape).Broadcasts ⟨2, ![m, n]⟩) (p : Fin m) (f : Fin n) :
    broadcastTo ⟨2, ![m, n]⟩ (shapeCast ⟨2, ![1, n]⟩ b h1) h2 (ix2 p f) = b (ix1 f) :=
  (row_spread_apply _ h2 p f).trans (row_cast_apply b h1 0 f)

end Cert.LibBiasRow
-- ==== Proof.RegionQkv.lean ====
/-
  The first kernel region: the three projections Q, K, V of the SAME [4096,1024] token matrix, each x·Wᵀ + b with its
  own weights and bias, computed in sixteen blocks of 256 rows.  For each of the three results, block t depends on
  block t of x (rows 256·t … 256·t+255), on all of the weights and on all of the bias: entry (p, f) of the block is
  Σ_k x(256·t+p, k)·W(f,k) + b(f), which is entry (256·t+p, f) of the whole-array affine map.  The sixteen blocks tile
  the array, so after the region each result array IS the affine map of the arrays the region found.  (A change of
  float format is the identity on extended reals, so the narrowing of the operands and of the results drops out.)
-/
import proofs.«122323_j2680059593303_2_alg».proof.Proof.Gen.KernelIdeal.Frame
import Idealize.ShloMosaic.Lib.Pipeline.Value
import Idealize.ShloMosaic.Lib.ValueIdx
import Idealize.ShloMosaic.PureOps.Ideal.Laws
import proofs.«122323_j2680059593303_2_alg».proof.Proof.AttentionSpec
import proofs.«122323_j2680059593303_2_alg».proof.Proof.LibRowDots
import proofs.«122323_j2680059593303_2_alg».proof.Proof.LibBiasRow

set_option maxRecDepth 16384

noncomputable section

open Cert.KernelIdeal Cert.KernelIdeal.Gen Cert.Attention
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Cert.KernelIdeal.Qkv
theorem hz2 : (![0, 0] : Fin 2 → Nat) = fun _ => 0 := funext fun a => by fin_cases a <;> rfl
theorem hz1 : (![0] : Fin 1 → Nat) = fun _ => 0 := funext fun a => by fin_cases a; rfl
end Cert.KernelIdeal.Qkv

open Cert.KernelIdeal.Qkv

/-! ## The query projection (result window 7) -/

namespace Cert.KernelIdeal.Qkv.Query

/-- The body's arithmetic at (p, f): row p of the block against row f of the weights, plus entry f of the bias. -/
theorem pay_at (x0 : Vec Ideal S256x1024 .f32) (x1 : Vec Ideal S1024x1024 .f32) (x2 : Vec Ideal S1024 .f32) (p : Fin 256) (f : Fin 1024) :
    k0_pay2 x0 x1 x2 (ix2 p f) = (∑ k : Fin 1024, x0 (ix2 p k) * x1 (ix2 f k)) + x2 (ix1 f) := by
  unfold k0_pay2 k0_pay1
  rw [truncf_apply, addf_apply]
  refine (congrArg₂ (· + ·)
    (Cert.LibRowDots.matmul_rows dot_S256x1024_S1024x1024_S256x1024_1_1_0_0_n_n_wf dot_S256x1024_S1024x1024_S256x1024_1_1_0_0_n_n rfl none _ _ p f)
    (Cert.LibBiasRow.bias_row_apply x2 shapeCasts_S1024_S1x1024 broadcasts_S1x1024_S256x1024 p f)).trans ?_
  simp only [truncf_apply, shapeCast_self]

/-- The body's block is the whole-array affine map at rows r … r+255, when its first operand holds those rows
    and the other two hold all of the weights and of the bias. -/
theorem block_at (X : Tok.Idx → EReal) (W : Wt.Idx → EReal) (B : Bs.Idx → EReal)
    (x0 : Vec Ideal S256x1024 .f32) (x1 : Vec Ideal S1024x1024 .f32) (x2 : Vec Ideal S1024 .f32) (r : Nat) (hr : r + 256 ≤ 4096)
    (h0 : ∀ (p : Fin 256) (k : Fin 1024), x0 (ix2 p k) = X (ix2 (⟨r + p.val, by omega⟩ : Fin 4096) k))
    (h1 : ∀ (f k : Fin 1024), x1 (ix2 f k) = W (ix2 f k)) (h2 : ∀ f : Fin 1024, x2 (ix1 f) = B (ix1 f))
    (p : Fin 256) (f : Fin 1024) :
    k0_pay2 x0 x1 x2 (ix2 p f) = affine X W B (ix2 (⟨r + p.val, by omega⟩ : Fin 4096) f) := by
  rw [pay_at, affine_ix2]
  unfold affineAt
  simp only [h0, h1, h2]

/-- The printed index maps over the grid: the token window and the result window move together, one block of
    256 rows per point; the weights and the bias stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_4.index t (0 : Fin 1) = 0
    ∧ win0_7.index t (0 : Fin 2) = t.val ∧ win0_7.index t (1 : Fin 2) = 0 :=
  (by decide +kernel : ∀ t : Fin grid0.N, _)

/-- What point t writes back is block t of the affine map of the arrays as the region finds them. -/
theorem flushed_eq (c : Dev nD) (t : Fin cfg0.N) :
    (dat0 V c).flushed 7 t = ((cfg0.win 7).blk t).view.read (Elt Ideal) (affine (V c main_v0) (V c main_arg3) (V c main_arg4)) := by
  show (cfg0.win 7).cut (grid0.coords t) ((dat0 V c).after 7 t) = _
  rw [after0_7]
  unfold out0_7
  rw [View.canon_unit_zero hz2]
  simp only [View.ld_unit_zero (S := S256x1024) hz2, View.ld_unit_zero (S := S1024x1024) hz2, View.ld_unit_zero (S := S1024) hz1]
  obtain ⟨e0, e1, e2, e3, e4, e5, e6⟩ := idx_facts t
  have ht : t.val < 16 := lt_of_lt_of_eq t.isLt N_0
  funext j
  show k0_pay2 (iblk0 V c 0 t) (iblk0 V c 1 t) (iblk0 V c 4 t) j
    = affine (V c main_v0) (V c main_arg3) (V c main_arg4) (((cfg0.win 7).blk t).view.emb j)
  have key := block_at (V c main_v0) (V c main_arg3) (V c main_arg4) (iblk0 V c 0 t) (iblk0 V c 1 t) (iblk0 V c 4 t)
    (t.val * 256) (by omega)
    (fun p k => by
      show V c main_v0 (((cfg0.win 0).blk t).view.emb (ix2 p k)) = V c main_v0 _
      refine congrArg (V c main_v0) (funext fun a => Fin.ext ?_)
      match a with
      | ⟨0, _⟩ => show win0_0.index t (0 : Fin 2) * 256 + 1 * p.val = t.val * 256 + p.val; omega
      | ⟨1, _⟩ => show win0_0.index t (1 : Fin 2) * 1024 + 1 * k.val = k.val; omega)
    (fun f k => by
      show V c main_arg3 (((cfg0.win 1).blk t).view.emb (ix2 f k)) = V c main_arg3 _
      refine congrArg (V c main_arg3) (funext fun a => Fin.ext ?_)
      match a with
      | ⟨0, _⟩ => show win0_1.index t (0 : Fin 2) * 1024 + 1 * f.val = f.val; omega
      | ⟨1, _⟩ => show win0_1.index t (1 : Fin 2) * 1024 + 1 * k.val = k.val; omega)
    (fun f => by
      show V c main_arg4 (((cfg0.win 4).blk t).view.emb (ix1 f)) = V c main_arg4 _
      refine congrArg (V c main_arg4) (funext fun a => Fin.ext ?_)
      match a with
      | ⟨0, _⟩ => show win0_4.index t (0 : Fin 1) * 1024 + 1 * f.val = f.val; omega)
    (j 0) (j 1)
  refine (congrArg (k0_pay2 (iblk0 V c 0 t) (iblk0 V c 1 t) (iblk0 V c 4 t)) (eq_ix2 j)).trans (key.trans ?_)
  refine congrArg (affine (V c main_v0) (V c main_arg3) (V c main_arg4)) (funext fun a => Fin.ext ?_)
  match a with
  | ⟨0, _⟩ => show t.val * 256 + (j 0).val = win0_7.index t (0 : Fin 2) * 256 + 1 * (j 0).val; omega
  | ⟨1, _⟩ => show (j 1).val = win0_7.index t (1 : Fin 2) * 1024 + 1 * (j 1).val; omega

/-- An index of the result array is in point t's block iff each coordinate is in the block's range on its axis. -/
theorem mem_blk (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v1_0).slice (win0_7.rect t)).set ↔ _
  rw [View.set_slice_whole, Rect.mem_set_unit]
  exact Iff.rfl

/-- Every row is in the block of the point numbered row / 256. -/
theorem cover (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 256, by rw [show cfg0.N = 16 from N_0]; omega⟩
  obtain ⟨e0, e1, e2, e3, e4, e5, e6⟩ := idx_facts t
  have ht : t.val = (i 0).val / 256 := rfl
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- After the region the result array is the affine map of the arrays the region found. -/
theorem final (c : Dev nD) :
    (dat0 V c).arrAt 7 cfg0.N = affine (V c main_v0) (V c main_arg3) (V c main_arg4) :=
  (dat0 V c).arrAt_eq_of_cover 7 _ (fun t _ => flushed_eq V c t) cover

end Cert.KernelIdeal.Qkv.Query

/-! ## The key projection (result window 8) -/

namespace Cert.KernelIdeal.Qkv.Key

/-- The body's arithmetic at (p, f): row p of the block against row f of the weights, plus entry f of the bias. -/
theorem pay_at (x0 : Vec Ideal S256x1024 .f32) (x1 : Vec Ideal S1024x1024 .f32) (x2 : Vec Ideal S1024 .f32) (p : Fin 256) (f : Fin 1024) :
    k0_pay3 x0 x1 x2 (ix2 p f) = (∑ k : Fin 1024, x0 (ix2 p k) * x1 (ix2 f k)) + x2 (ix1 f) := by
  unfold k0_pay3 k0_pay1
  rw [truncf_apply, addf_apply]
  refine (congrArg₂ (· + ·)
    (Cert.LibRowDots.matmul_rows dot_S256x1024_S1024x1024_S256x1024_1_1_0_0_n_n_wf dot_S256x1024_S1024x1024_S256x1024_1_1_0_0_n_n rfl none _ _ p f)
    (Cert.LibBiasRow.bias_row_apply x2 shapeCasts_S1024_S1x1024 broadcasts_S1x1024_S256x1024 p f)).trans ?_
  simp only [truncf_apply, shapeCast_self]

/-- The body's block is the whole-array affine map at rows r … r+255, when its first operand holds those rows
    and the other two hold all of the weights and of the bias. -/
theorem block_at (X : Tok.Idx → EReal) (W : Wt.Idx → EReal) (B : Bs.Idx → EReal)
    (x0 : Vec Ideal S256x1024 .f32) (x1 : Vec Ideal S1024x1024 .f32) (x2 : Vec Ideal S1024 .f32) (r : Nat) (hr : r + 256 ≤ 4096)
    (h0 : ∀ (p : Fin 256) (k : Fin 1024), x0 (ix2 p k) = X (ix2 (⟨r + p.val, by omega⟩ : Fin 4096) k))
    (h1 : ∀ (f k : Fin 1024), x1 (ix2 f k) = W (ix2 f k)) (h2 : ∀ f : Fin 1024, x2 (ix1 f) = B (ix1 f))
    (p : Fin 256) (f : Fin 1024) :
    k0_pay3 x0 x1 x2 (ix2 p f) = affine X W B (ix2 (⟨r + p.val, by omega⟩ : Fin 4096) f) := by
  rw [pay_at, affine_ix2]
  unfold affineAt
  simp only [h0, h1, h2]

/-- The printed index maps over the grid: the token window and the result window move together, one block of
    256 rows per point; the weights and the bias stay whole. -/
theorem idx_facts : ∀ t : Fin cfg0.N, win0_0.index t (0 : Fin 2) = t.val ∧ win0_0.index t (1 : Fin 2) = 0
    ∧ win0_2.index t (0 : Fin 2) = 0 ∧ win0_2.index t (1 : Fin 2) = 0 ∧ win0_5.index t (0 : Fin 1) = 0
    ∧ win0_8.index t (0 : Fin 2) = t.val ∧ win0_8.index t (1 : Fin 2) = 0 :=
  (by decide +kernel : ∀ t : Fin grid0.N, _)

/-- What point t writes back is block t of the affine map of the arrays as the region finds them. -/
theorem flushed_eq (c : Dev nD) (t : Fin cfg0.N) :
    (dat0 V c).flushed 8 t = ((cfg0.win 8).blk t).view.read (Elt Ideal) (affine (V c main_v0) (V c main_arg5) (V c main_arg6)) := by
  show (cfg0.win 8).cut (grid0.coords t) ((dat0 V c).after 8 t) = _
  rw [after0_8]
  unfold out0_8
  rw [View.canon_unit_zero hz2]
  simp only [View.ld_unit_zero (S := S256x1024) hz2, View.ld_unit_zero (S := S1024x1024) hz2, View.ld_unit_zero (S := S1024) hz1]
  obtain ⟨e0, e1, e2, e3, e4, e5, e6⟩ := idx_facts t
  have ht : t.val < 16 := lt_of_lt_of_eq t.isLt N_0
  funext j
  show k0_pay3 (iblk0 V c 0 t) (iblk0 V c 2 t) (iblk0 V c 5 t) j
    = affine (V c main_v0) (V c main_arg5) (V c main_arg6) (((cfg0.win 8).blk t).view.emb j)
  have key := block_at (V c main_v0) (V c main_arg5) (V c main_arg6) (iblk0 V c 0 t) (iblk0 V c 2 t) (iblk0 V c 5 t)
    (t.val * 256) (by omega)
    (fun p k => by
      show V c main_v0 (((cfg0.win 0).blk t).view.emb (ix2 p k)) = V c main_v0 _
      refine congrArg (V c main_v0) (funext fun a => Fin.ext ?_)
      match a with
      | ⟨0, _⟩ => show win0_0.index t (0 : Fin 2) * 256 + 1 * p.val = t.val * 256 + p.val; omega
      | ⟨1, _⟩ => show win0_0.index t (1 : Fin 2) * 1024 + 1 * k.val = k.val; omega)
    (fun f k => by
      show V c main_arg5 (((cfg0.win 2).blk t).view.emb (ix2 f k)) = V c main_arg5 _
      refine congrArg (V c main_arg5) (funext fun a => Fin.ext ?_)
      match a with
      | ⟨0, _⟩ => show win0_2.index t (0 : Fin 2) * 1024 + 1 * f.val = f.val; omega
      | ⟨1, _⟩ => show win0_2.index t (1 : Fin 2) * 1024 + 1 * k.val = k.val; omega)
    (fun f => by
      show V c main_arg6 (((cfg0.win 5).blk t).view.emb (ix1 f)) = V c main_arg6 _
      refine congrArg (V c main_arg6) (funext fun a => Fin.ext ?_)
      match a with
      | ⟨0, _⟩ => show win0_5.index t (0 : Fin 1) * 1024 + 1 * f.val = f.val; omega)
    (j 0) (j 1)
  refine (congrArg (k0_pay3 (iblk0 V c 0 t) (iblk0 V c 2 t) (iblk0 V c 5 t)) (eq_ix2 j)).trans (key.trans ?_)
  refine congrArg (affine (V c main_v0) (V c main_arg5) (V c main_arg6)) (funext fun a => Fin.ext ?_)
  match a with
  | ⟨0, _⟩ => show t.val * 256 + (j 0).val = win0_8.index t (0 : Fin 2) * 256 + 1 * (j 0).val; omega
  | ⟨1, _⟩ => show (j 1).val = win0_8.index t (1 : Fin 2) * 1024 + 1 * (j 1).val; omega

/-- An index of the result array is in point t's block iff each coordinate is in the block's range on its axis. -/
theorem mem_blk (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v1_1).slice (win0_8.rect t)).set ↔ _
  rw [View.set_slice_whole, Rect.mem_set_unit]
  exact Iff.rfl

/-- Every row is in the block of the point numbered row / 256. -/
theorem cover (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  let t : Fin cfg0.N := ⟨(i 0).val / 256, by rw [show cfg0.N = 16 from N_0]; omega⟩
  obtain ⟨e0, e1, e2, e3, e4, e5, e6⟩ := idx_facts t
  have ht : t.val = (i 0).val / 256 := rfl
  refine ⟨t, flush0_8 t, ?_⟩
  rw [mem_blk]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- After the region the result array is the affine map of the arrays the region found. -/
theorem final (c : Dev nD) :
    (dat0 V c).arrAt 8 cfg0.N = affine (V c main_v0) (V c main_arg5) (V c main_arg6) :=
  (dat0 V c).arrAt_eq_of_cover 8 _ (fun t _ => flushed_eq V c t) cover

end Cert.KernelIdeal.Qkv.Key

/-! ## The value projection (result window 9) -/

namespace Cert.KernelIdeal.Qkv.Value

/-- The body's arithmetic at (p, f): row p of the block against row f of the weights, plus entry f of the bias. -/
theorem pay_at (x0 : Vec Ideal S256x1024 .f32) (x1 : Vec Ideal S1024x1024 .f32) (x2 : Vec Ideal S1024 .f32) (p : Fin 256) (f : Fin 1024) :
    k0_pay4 x0 x1 x2 (ix2 p f) = (∑ k : Fin 1024, x0 (ix2 p k) * x1 (ix2 f k)) + x2 (ix1 f) := by
  unfold k0_pay4 k0_pay1
  rw [truncf_apply, addf_apply]
  refine (congrArg₂ (· + ·)
    (Cert.LibRowDots.matmul_rows dot_S256x1024_S1024x1024_S256x1024_1_1_0_0_n_n_wf dot_S256x1024_S1024x1024_S256x1024_1_1_0_0_n_n rfl none _ _ p f)
    (Cert.LibBiasRow.bias_row_apply x2 shapeCasts_S1024_S1x1024 broadcasts_S1x1024_S256x1024 p f)).trans ?_
  simp only [truncf_apply, shapeCast_self]

/-- The body's block is the whole-array affine map at rows r … r+255, when its first operand holds those rows
    and the other two hold all of the weights and of the bias. -/
theorem block_at (X : Tok.Idx → EReal) (W : Wt.Idx → EReal) (B : Bs.Idx → EReal)
    (x0 : Vec Ideal S256x1024 .f32) (x1 : Vec Ideal S1024x1024 .f32) (x2 : Vec Ideal S1024 .f32) (r : Nat) (hr : r + 256 ≤ 4096)
    (h0 : ∀ (p : Fin 256) (k : Fin 1024), x0 (ix2 p k) = X (ix2 (⟨r + p.val, by omega⟩ : Fin 4096) k))
    (h1 : ∀ (f k : Fin 1024), x1 (ix2 f k) = W (ix2 f k)) (h2 : ∀ f : Fin 1024, x2 (ix1 f) = B (ix1 f))
    (p : Fin 256) (f : Fin 1024) :
    k0_pay4 x0 x1 x2 (ix2 p f) = affine X W B (ix2 (⟨r + p.val, by omega⟩ : Fin 4096) f) := by
  rw [pay_at, affine_ix2]
  unfold affineAt
  simp only [h0, h1, h2]

/-- The printed index maps over the grid: the token window and the result window move together, one block of
    256 rows per point; the weights and the bias stay whole. -/
theorem idx_facts : ∀ t : Fin cfg0.N, win0_0.index t (0 : Fin 2) = t.val ∧ win0_0.index t (1 : Fin 2) = 0
    ∧ win0_3.index t (0 : Fin 2) = 0 ∧ win0_3.index t (1 : Fin 2) = 0 ∧ win0_6.index t (0 : Fin 1) = 0
    ∧ win0_9.index t (0 : Fin 2) = t.val ∧ win0_9.index t (1 : Fin 2) = 0 :=
  (by decide +kernel : ∀ t : Fin grid0.N, _)

/-- What point t writes back is block t of the affine map of the arrays as the region finds them. -/
theorem flushed_eq (c : Dev nD) (t : Fin cfg0.N) :
    (dat0 V c).flushed 9 t = ((cfg0.win 9).blk t).view.read (Elt Ideal) (affine (V c main_v0) (V c main_arg7) (V c main_arg8)) := by
  show (cfg0.win 9).cut (grid0.coords t) ((dat0 V c).after 9 t) = _
  rw [after0_9]
  unfold out0_9
  rw [View.canon_unit_zero hz2]
  simp only [View.ld_unit_zero (S := S256x1024) hz2, View.ld_unit_zero (S := S1024x1024) hz2, View.ld_unit_zero (S := S1024) hz1]
  obtain ⟨e0, e1, e2, e3, e4, e5, e6⟩ := idx_facts t
  have ht : t.val < 16 := lt_of_lt_of_eq t.isLt N_0
  funext j
  show k0_pay4 (iblk0 V c 0 t) (iblk0 V c 3 t) (iblk0 V c 6 t) j
    = affine (V c main_v0) (V c main_arg7) (V c main_arg8) (((cfg0.win 9).blk t).view.emb j)
  have key := block_at (V c main_v0) (V c main_arg7) (V c main_arg8) (iblk0 V c 0 t) (iblk0 V c 3 t) (iblk0 V c 6 t)
    (t.val * 256) (by omega)
    (fun p k => by
      show V c main_v0 (((cfg0.win 0).blk t).view.emb (ix2 p k)) = V c main_v0 _
      refine congrArg (V c main_v0) (funext fun a => Fin.ext ?_)
      match a with
      | ⟨0, _⟩ => show win0_0.index t (0 : Fin 2) * 256 + 1 * p.val = t.val * 256 + p.val; omega
      | ⟨1, _⟩ => show win0_0.index t (1 : Fin 2) * 1024 + 1 * k.val = k.val; omega)
    (fun f k => by
      show V c main_arg7 (((cfg0.win 3).blk t).view.emb (ix2 f k)) = V c main_arg7 _
      refine congrArg (V c main_arg7) (funext fun a => Fin.ext ?_)
      match a with
      | ⟨0, _⟩ => show win0_3.index t (0 : Fin 2) * 1024 + 1 * f.val = f.val; omega
      | ⟨1, _⟩ => show win0_3.index t (1 : Fin 2) * 1024 + 1 * k.val = k.val; omega)
    (fun f => by
      show V c main_arg8 (((cfg0.win 6).blk t).view.emb (ix1 f)) = V c main_arg8 _
      refine congrArg (V c main_arg8) (funext fun a => Fin.ext ?_)
      match a with
      | ⟨0, _⟩ => show win0_6.index t (0 : Fin 1) * 1024 + 1 * f.val = f.val; omega)
    (j 0) (j 1)
  refine (congrArg (k0_pay4 (iblk0 V c 0 t) (iblk0 V c 3 t) (iblk0 V c 6 t)) (eq_ix2 j)).trans (key.trans ?_)
  refine congrArg (affine (V c main_v0) (V c main_arg7) (V c main_arg8)) (funext fun a => Fin.ext ?_)
  match a with
  | ⟨0, _⟩ => show t.val * 256 + (j 0).val = win0_9.index t (0 : Fin 2) * 256 + 1 * (j 0).val; omega
  | ⟨1, _⟩ => show (j 1).val = win0_9.index t (1 : Fin 2) * 1024 + 1 * (j 1).val; omega

/-- An index of the result array is in point t's block iff each coordinate is in the block's range on its axis. -/
theorem mem_blk (t : Fin cfg0.N) (i : S4096x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v1_2).slice (win0_9.rect t)).set ↔ _
  rw [View.set_slice_whole, Rect.mem_set_unit]
  exact Iff.rfl

/-- Every row is in the block of the point numbered row / 256. -/
theorem cover (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  let t : Fin cfg0.N := ⟨(i 0).val / 256, by rw [show cfg0.N = 16 from N_0]; omega⟩
  obtain ⟨e0, e1, e2, e3, e4, e5, e6⟩ := idx_facts t
  have ht : t.val = (i 0).val / 256 := rfl
  refine ⟨t, flush0_9 t, ?_⟩
  rw [mem_blk]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

/-- After the region the result array is the affine map of the arrays the region found. -/
theorem final (c : Dev nD) :
    (dat0 V c).arrAt 9 cfg0.N = affine (V c main_v0) (V c main_arg7) (V c main_arg8) :=
  (dat0 V c).arrAt_eq_of_cover 9 _ (fun t _ => flushed_eq V c t) cover

end Cert.KernelIdeal.Qkv.Value

end
-- ==== Proof.RegionScores.lean ====
/-
  The second kernel region: the head-averaged scores.  Its operands Qc, Kc are [2,2048,1024] arrays (per batch element
  and token, the 1024 lanes of all heads side by side); its result is [2,2048,2048].  Entry (b, t, s) is the inner
  product over the 1024 lanes of row t of Qc[b] and row s of Kc[b], times the float 2⁻⁵.  The grid has 2·4 points:
  point (b, i) computes rows 512·i … 512·i+511 of batch element b from those rows of Qc[b] and all of Kc[b].  The eight
  blocks tile the result array, so after the region it IS that function of the arrays the region found.
-/
import proofs.«122323_j2680059593303_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«122323_j2680059593303_2_alg».proof.Proof.AttentionSpec
import proofs.«122323_j2680059593303_2_alg».proof.Proof.LibRowDots

set_option maxRecDepth 16384

noncomputable section

namespace Cert.KernelIdeal.Scores

open Cert.KernelIdeal Cert.KernelIdeal.Gen Cert.Attention
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- Entry (b, t, s): one inner product over the 1024 concatenated lanes, times the float 2⁻⁵. -/
def scoresAt (Qc Kc : Cat.Idx → EReal) (b : Fin 2) (t s : Fin 2048) : EReal :=
  (∑ e : Fin 1024, Qc (ix3 b t e) * Kc (ix3 b s e)) * Ideal.ofBits .f32 0x3D000000#32

def scores (Qc Kc : Cat.Idx → EReal) : Sc.Idx → EReal := fun i => scoresAt Qc Kc (i 0) (i 1) (i 2)

theorem scores_ix3 (Qc Kc : Cat.Idx → EReal) (b : Fin 2) (t s : Fin 2048) : scores Qc Kc (ix3 b t s) = scoresAt Qc Kc b t s := rfl

/-- The body's arithmetic at (u, p, f): row p of the query block against row f of the key block, scaled. -/
theorem pay_at (x0 : Vec Ideal S1x512x1024 .bf16) (x1 : Vec Ideal S1x2048x1024 .bf16) (u : Fin 1) (p : Fin 512) (f : Fin 2048) :
    k1_pay1 x0 x1 (ix3 u p f) = (∑ e : Fin 1024, x0 (ix3 (0 : Fin 1) p e) * x1 (ix3 (0 : Fin 1) f e)) * Ideal.ofBits .f32 0x3D000000#32 := by
  unfold k1_pay1
  refine (shapeCast_ab_1ab_apply _ shapeCasts_S512x2048_S1x512x2048 u p f).trans ?_
  rw [mulf_apply, broadcast_apply]
  refine (congrArg (· * _)
    (Cert.LibRowDots.matmul_rows dot_S512x1024_S2048x1024_S512x2048_1_1_0_0_n_n_wf
      dot_S512x1024_S2048x1024_S512x2048_1_1_0_0_n_n rfl none _ _ p f)).trans ?_
  refine congrArg₂ (· * ·) (Finset.sum_congr rfl fun e _ => ?_) rfl
  rw [shapeCast_1ab_ab_apply, shapeCast_1ab_ab_apply]

/-- The body's block is the whole-array function at batch element b, rows r … r+511, when its first operand holds
    those rows of Qc[b] and its second all of Kc[b]. -/
theorem block_at (Qc Kc : Cat.Idx → EReal) (x0 : Vec Ideal S1x512x1024 .bf16) (x1 : Vec Ideal S1x2048x1024 .bf16)
    (b : Fin 2) (r : Nat) (hr : r + 512 ≤ 2048)
    (h0 : ∀ (p : Fin 512) (e : Fin 1024), x0 (ix3 (0 : Fin 1) p e) = Qc (ix3 b (⟨r + p.val, by omega⟩ : Fin 2048) e))
    (h1 : ∀ (s : Fin 2048) (e : Fin 1024), x1 (ix3 (0 : Fin 1) s e) = Kc (ix3 b s e))
    (u : Fin 1) (p : Fin 512) (f : Fin 2048) :
    k1_pay1 x0 x1 (ix3 u p f) = scores Qc Kc (ix3 b (⟨r + p.val, by omega⟩ : Fin 2048) f) := by
  rw [pay_at, scores_ix3]
  unfold scoresAt
  simp only [h0, h1]

/-- The printed index maps over the eight grid points: point t is batch element t / 4 and row block t % 4; the query
    window and the result window move together, the key window follows the batch element only. -/
theorem idx_facts : ∀ t : Fin cfg1.N, win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- What point t writes back is block t of the scores of the arrays as the region finds them. -/
theorem flushed_eq (c : Dev nD) (t : Fin cfg1.N) :
    (dat1 V c).flushed 2 t = ((cfg1.win 2).blk t).view.read (Elt Ideal) (scores (V c main_v7) (V c main_v10)) := by
  show (cfg1.win 2).cut (grid1.coords t) ((dat1 V c).after 2 t) = _
  rw [after1_2]
  unfold out1_2
  rw [View.canon_unit_zero hz3]
  simp only [View.ld_unit_zero (S := S1x512x1024) hz3, View.ld_unit_zero (S := S1x2048x1024) hz3]
  obtain ⟨e0, e1, e2, e3, e4, e5, e6, e7, e8⟩ := idx_facts t
  have ht : t.val < 8 := lt_of_lt_of_eq t.isLt N_1
  funext j
  show k1_pay1 (iblk1 V c 0 t) (iblk1 V c 1 t) j
    = scores (V c main_v7) (V c main_v10) (((cfg1.win 2).blk t).view.emb j)
  have hj0 : (j 0).val < 1 := (j 0).isLt
  have key := block_at (V c main_v7) (V c main_v10) (iblk1 V c 0 t) (iblk1 V c 1 t)
    (⟨t.val / 4, by omega⟩ : Fin 2) (t.val % 4 * 512) (by omega)
    (fun p e => by
      show V c main_v7 (((cfg1.win 0).blk t).view.emb (ix3 (0 : Fin 1) p e)) = V c main_v7 _
      refine congrArg (V c main_v7) (funext fun a => Fin.ext ?_)
      match a with
      | ⟨0, _⟩ => show win1_0.index t (0 : Fin 3) * 1 + 1 * 0 = t.val / 4; omega
      | ⟨1, _⟩ => show win1_0.index t (1 : Fin 3) * 512 + 1 * p.val = t.val % 4 * 512 + p.val; omega
      | ⟨2, _⟩ => show win1_0.index t (2 : Fin 3) * 1024 + 1 * e.val = e.val; omega)
    (fun s e => by
      show V c main_v10 (((cfg1.win 1).blk t).view.emb (ix3 (0 : Fin 1) s e)) = V c main_v10 _
      refine congrArg (V c main_v10) (funext fun a => Fin.ext ?_)
      match a with
      | ⟨0, _⟩ => show win1_1.index t (0 : Fin 3) * 1 + 1 * 0 = t.val / 4; omega
      | ⟨1, _⟩ => show win1_1.index t (1 : Fin 3) * 2048 + 1 * s.val = s.val; omega
      | ⟨2, _⟩ => show win1_1.index t (2 : Fin 3) * 1024 + 1 * e.val = e.val; omega)
    (j 0) (j 1) (j 2)
  refine (congrArg (k1_pay1 (iblk1 V c 0 t) (iblk1 V c 1 t)) (eq_ix3 j)).trans (key.trans ?_)
  refine congrArg (scores (V c main_v7) (V c main_v10)) (funext fun a => Fin.ext ?_)
  match a with
  | ⟨0, _⟩ => show t.val / 4 = win1_2.index t (0 : Fin 3) * 1 + 1 * (j 0).val; omega
  | ⟨1, _⟩ => show t.val % 4 * 512 + (j 1).val = win1_2.index t (1 : Fin 3) * 512 + 1 * (j 1).val; omega
  | ⟨2, _⟩ => show (j 2).val = win1_2.index t (2 : Fin 3) * 2048 + 1 * (j 2).val; omega

/-- An index of the result array is in point t's block iff each coordinate is in the block's range on its axis. -/
theorem mem_blk (t : Fin cfg1.N) (i : S2x2048x2048.Idx) :
    i ∈ ((cfg1.win 2).blk t).view.set ↔ ∀ a : Fin 3, win1_2.index t a * S1x512x2048.size a ≤ (i a).val ∧ (i a).val < win1_2.index t a * S1x512x2048.size a + S1x512x2048.size a := by
  show i ∈ ((View.whole main_v11).slice (win1_2.rect t)).set ↔ _
  rw [View.set_slice_whole, Rect.mem_set_unit]
  exact Iff.rfl

/-- Entry (b, t, ·) is in the block of the point numbered 4·b + t / 512. -/
theorem cover (i : S2x2048x2048.Idx) : ∃ t : Fin cfg1.N, (cfg1.win 2).flush t = true ∧ i ∈ ((cfg1.win 2).blk t).view.set := by
  have hi0 : (i 0).val < 2 := (i 0).isLt
  have hi1 : (i 1).val < 2048 := (i 1).isLt
  have hi2 : (i 2).val < 2048 := (i 2).isLt
  let t : Fin cfg1.N := ⟨(i 0).val * 4 + (i 1).val / 512, by rw [show cfg1.N = 8 from N_1]; omega⟩
  obtain ⟨e0, e1, e2, e3, e4, e5, e6, e7, e8⟩ := idx_facts t
  have ht : t.val = (i 0).val * 4 + (i 1).val / 512 := rfl
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 2048 ≤ (i 2).val ∧ (i 2).val < win1_2.index t (2 : Fin 3) * 2048 + 2048; omega

/-- After the region the result array is the scores of the arrays the region found. -/
theorem final (c : Dev nD) : (dat1 V c).arrAt 2 cfg1.N = scores (V c main_v7) (V c main_v10) :=
  (dat1 V c).arrAt_eq_of_cover 2 _ (fun t _ => flushed_eq V c t) cover

end Cert.KernelIdeal.Scores

end
-- ==== Proof.LibBatchedMatmul.lean ====
/-
  Batched matrix products read at an index, at the ideal instance.

  A product with one batch axis multiplies, for every batch number g, chunk g of the left operand with chunk g of
  the right one.  Two arrangements are read here, each into the zero accumulator:

  * the Gram form  [B,S,K] x [B,S,N] -> [B,K,N], both operands contracted along their middle axis S:
    entry (g, p, f) is the sum over s of a(g,s,p) * w(g,s,f)  (chunk g of the left operand, transposed, times
    chunk g of the right one);
  * the chained form  [B,M,K] x [B,K,N] -> [B,M,N], the left contracted along its last axis and the right along
    its middle axis: entry (g, p, f) is the sum over d of a(g,p,d) * w(g,d,f).

  Both hold for any dimension-number record equal to the literal one, whatever the proof of its well-formedness.
-/
import Idealize.ShloMosaic.PureOps.Ideal.Laws
import Idealize.ShloMosaic.Lib.ValueIdx

noncomputable section

namespace Cert.LibBatchedMatmul

open Idealize.ShloMosaic Idealize.ShloMosaic.ValueIdx

/-! ## [B,S,K] against [B,S,N], contracted along S -/

section Gram

variable {B S K N : Nat}
variable (wf : DotDims.WF ⟨3, ![B, S, K]⟩ ⟨3, ![B, S, N]⟩ ⟨3, ![B, K, N]⟩ [1] [1] [2] [2] [0] [0])

/-- The literal record: axis 0 the batch axis of both, both contracted on axis 1. -/
abbrev gram : DotDims ⟨3, ![B, S, K]⟩ ⟨3, ![B, S, N]⟩ ⟨3, ![B, K, N]⟩ := ⟨[1], [1], [2], [2], [0], [0], wf⟩

theorem gram_lhs0 (i : (⟨3, ![B, K, N]⟩ : Shape).Idx) (q : (gram wf).contr.Idx) : ((gram wf).lhsIdx i q 0).val = (i 0).val := by
  unfold DotDims.lhsIdx
  rw [dif_pos (show (0 : Fin 3) ∈ (gram wf).lhsBatch from (by decide : (0 : Fin 3) ∈ ([0] : List (Fin 3))))]
  rfl

theorem gram_lhs1 (i : (⟨3, ![B, K, N]⟩ : Shape).Idx) (q : (gram wf).contr.Idx) : ((gram wf).lhsIdx i q 1).val = (q ⟨0, Nat.one_pos⟩).val :=
  (gram wf).lhsIdx_val_of_single rfl i q

theorem gram_lhs2 (i : (⟨3, ![B, K, N]⟩ : Shape).Idx) (q : (gram wf).contr.Idx) : ((gram wf).lhsIdx i q 2).val = (i 1).val := by
  unfold DotDims.lhsIdx
  rw [dif_neg (show ¬(2 : Fin 3) ∈ (gram wf).lhsBatch from (by decide : ¬(2 : Fin 3) ∈ ([0] : List (Fin 3)))), dif_pos (show (2 : Fin 3) ∈ (gram wf).lhsNonContracting from (by decide : (2 : Fin 3) ∈ ([2] : List (Fin 3))))]
  rfl

theorem gram_rhs0 (i : (⟨3, ![B, K, N]⟩ : Shape).Idx) (q : (gram wf).contr.Idx) : ((gram wf).rhsIdx i q 0).val = (i 0).val := by
  unfold DotDims.rhsIdx
  rw [dif_pos (show (0 : Fin 3) ∈ (gram wf).rhsBatch from (by decide : (0 : Fin 3) ∈ ([0] : List (Fin 3))))]
  rfl

theorem gram_rhs1 (i : (⟨3, ![B, K, N]⟩ : Shape).Idx) (q : (gram wf).contr.Idx) : ((gram wf).rhsIdx i q 1).val = (q ⟨0, Nat.one_pos⟩).val :=
  (gram wf).rhsIdx_val_of_single rfl i q

theorem gram_rhs2 (i : (⟨3, ![B, K, N]⟩ : Shape).Idx) (q : (gram wf).contr.Idx) : ((gram wf).rhsIdx i q 2).val = (i 2).val := by
  unfold DotDims.rhsIdx
  rw [dif_neg (show ¬(2 : Fin 3) ∈ (gram wf).rhsBatch from (by decide : ¬(2 : Fin 3) ∈ ([0] : List (Fin 3)))), dif_pos (show (2 : Fin 3) ∈ (gram wf).rhsNonContracting from (by decide : (2 : Fin 3) ∈ ([2] : List (Fin 3))))]
  rfl

/-- A `tpu.matmul` in the Gram form into the zero accumulator, at (g, p, f): the sum over the shared middle axis. -/
theorem matmul_gram {φ₁ φ₂ : FTy} (D : DotDims ⟨3, ![B, S, K]⟩ ⟨3, ![B, S, N]⟩ ⟨3, ![B, K, N]⟩) (hD : D = gram wf)
    (prec : Option ContractPrecision) (a : FVec Ideal ⟨3, ![B, S, K]⟩ φ₁) (w : FVec Ideal ⟨3, ![B, S, N]⟩ φ₂) (g : Fin B) (p : Fin K) (f : Fin N) :
    matmul D prec a w (constant (F := Ideal) ⟨3, ![B, K, N]⟩ .f32 0x00000000#32) (ix3 g p f) = ∑ s : Fin S, a (ix3 g s p) * w (ix3 g s f) := by
  subst hD
  refine (Ideal.matmul_constant_zero_apply _ prec a w (ix3 g p f)).trans ?_
  rw [← Equiv.sum_comp (contrEquiv1 (gram wf) S rfl rfl).symm]
  refine Finset.sum_congr rfl fun k _ => ?_
  have hk := contrEquiv1_symm_val (gram wf) S rfl rfl k
  have el : (gram wf).lhsIdx (ix3 g p f) ((contrEquiv1 (gram wf) S rfl rfl).symm k) = ix3 g k p := funext fun x => Fin.ext (by
    match x with
    | ⟨0, _⟩ => exact gram_lhs0 wf _ _
    | ⟨1, _⟩ => exact (gram_lhs1 wf _ _).trans hk
    | ⟨2, _⟩ => exact gram_lhs2 wf _ _)
  have er : (gram wf).rhsIdx (ix3 g p f) ((contrEquiv1 (gram wf) S rfl rfl).symm k) = ix3 g k f := funext fun x => Fin.ext (by
    match x with
    | ⟨0, _⟩ => exact gram_rhs0 wf _ _
    | ⟨1, _⟩ => exact (gram_rhs1 wf _ _).trans hk
    | ⟨2, _⟩ => exact gram_rhs2 wf _ _)
  rw [el, er]

end Gram

/-! ## [B,M,K] against [B,K,N] -/

section Chained

variable {B M K N : Nat}
variable (wf : DotDims.WF ⟨3, ![B, M, K]⟩ ⟨3, ![B, K, N]⟩ ⟨3, ![B, M, N]⟩ [2] [1] [1] [2] [0] [0])

/-- The literal record: axis 0 the batch axis of both, the left contracted on axis 2, the right on axis 1. -/
abbrev chained : DotDims ⟨3, ![B, M, K]⟩ ⟨3, ![B, K, N]⟩ ⟨3, ![B, M, N]⟩ := ⟨[2], [1], [1], [2], [0], [0], wf⟩

theorem chained_lhs0 (i : (⟨3, ![B, M, N]⟩ : Shape).Idx) (q : (chained wf).contr.Idx) : ((chained wf).lhsIdx i q 0).val = (i 0).val := by
  unfold DotDims.lhsIdx
  rw [dif_pos (show (0 : Fin 3) ∈ (chained wf).lhsBatch from (by decide : (0 : Fin 3) ∈ ([0] : List (Fin 3))))]
  rfl

theorem chained_lhs1 (i : (⟨3, ![B, M, N]⟩ : Shape).Idx) (q : (chained wf).contr.Idx) : ((chained wf).lhsIdx i q 1).val = (i 1).val := by
  unfold DotDims.lhsIdx
  rw [dif_neg (show ¬(1 : Fin 3) ∈ (chained wf).lhsBatch from (by decide : ¬(1 : Fin 3) ∈ ([0] : List (Fin 3)))), dif_pos (show (1 : Fin 3) ∈ (chained wf).lhsNonContracting from (by decide : (1 : Fin 3) ∈ ([1] : List (Fin 3))))]
  rfl

theorem chained_lhs2 (i : (⟨3, ![B, M, N]⟩ : Shape).Idx) (q : (chained wf).contr.Idx) : ((chained wf).lhsIdx i q 2).val = (q ⟨0, Nat.one_pos⟩).val :=
  (chained wf).lhsIdx_val_of_single rfl i q

theorem chained_rhs0 (i : (⟨3, ![B, M, N]⟩ : Shape).Idx) (q : (chained wf).contr.Idx) : ((chained wf).rhsIdx i q 0).val = (i 0).val := by
  unfold DotDims.rhsIdx
  rw [dif_pos (show (0 : Fin 3) ∈ (chained wf).rhsBatch from (by decide : (0 : Fin 3) ∈ ([0] : List (Fin 3))))]
  rfl

theorem chained_rhs1 (i : (⟨3, ![B, M, N]⟩ : Shape).Idx) (q : (chained wf).contr.Idx) : ((chained wf).rhsIdx i q 1).val = (q ⟨0, Nat.one_pos⟩).val :=
  (chained wf).rhsIdx_val_of_single rfl i q

theorem chained_rhs2 (i : (⟨3, ![B, M, N]⟩ : Shape).Idx) (q : (chained wf).contr.Idx) : ((chained wf).rhsIdx i q 2).val = (i 2).val := by
  unfold DotDims.rhsIdx
  rw [dif_neg (show ¬(2 : Fin 3) ∈ (chained wf).rhsBatch from (by decide : ¬(2 : Fin 3) ∈ ([0] : List (Fin 3)))), dif_pos (show (2 : Fin 3) ∈ (chained wf).rhsNonContracting from (by decide : (2 : Fin 3) ∈ ([2] : List (Fin 3))))]
  rfl

/-- A `tpu.matmul` in the chained form into the zero accumulator, at (g, p, f). -/
theorem matmul_chained {φ₁ φ₂ : FTy} (D : DotDims ⟨3, ![B, M, K]⟩ ⟨3, ![B, K, N]⟩ ⟨3, ![B, M, N]⟩) (hD : D = chained wf)
    (prec : Option ContractPrecision) (a : FVec Ideal ⟨3, ![B, M, K]⟩ φ₁) (w : FVec Ideal ⟨3, ![B, K, N]⟩ φ₂) (g : Fin B) (p : Fin M) (f : Fin N) :
    matmul D prec a w (constant (F := Ideal) ⟨3, ![B, M, N]⟩ .f32 0x00000000#32) (ix3 g p f) = ∑ d : Fin K, a (ix3 g p d) * w (ix3 g d f) := by
  subst hD
  refine (Ideal.matmul_constant_zero_apply _ prec a w (ix3 g p f)).trans ?_
  rw [← Equiv.sum_comp (contrEquiv1 (chained wf) K rfl rfl).symm]
  refine Finset.sum_congr rfl fun k _ => ?_
  have hk := contrEquiv1_symm_val (chained wf) K rfl rfl k
  have el : (chained wf).lhsIdx (ix3 g p f) ((contrEquiv1 (chained wf) K rfl rfl).symm k) = ix3 g p k := funext fun x => Fin.ext (by
    match x with
    | ⟨0, _⟩ => exact chained_lhs0 wf _ _
    | ⟨1, _⟩ => exact chained_lhs1 wf _ _
    | ⟨2, _⟩ => exact (chained_lhs2 wf _ _).trans hk)
  have er : (chained wf).rhsIdx (ix3 g p f) ((contrEquiv1 (chained wf) K rfl rfl).symm k) = ix3 g k f := funext fun x => Fin.ext (by
    match x with
    | ⟨0, _⟩ => exact chained_rhs0 wf _ _
    | ⟨1, _⟩ => exact (chained_rhs1 wf _ _).trans hk
    | ⟨2, _⟩ => exact chained_rhs2 wf _ _)
  rw [el, er]

end Chained

end Cert.LibBatchedMatmul

end
-- ==== Proof.RegionCore.lean ====
/-
  The third kernel region: the unnormalised attention of each of the 64 chunks, eight chunks per grid point.  With
  Q, K, V the [64,2048,32] arrays, entry (g, t, e) of the result is Σ_d Q(g,t,d)·(Σ_s K(g,s,d)·V(g,s,e)): the body
  first forms, per chunk, the 32×32 matrix Kᵀ·V (a product contracted along the 2048 keys), then multiplies Q by it.
  Block t of the result depends on chunks 8·t … 8·t+7 of Q, K and V only.  The eight blocks tile the array, so after
  the region the result array IS that function of the arrays the region found.
-/
import proofs.«122323_j2680059593303_2_alg».proof.Proof.Gen.KernelIdeal.Frame
import Idealize.ShloMosaic.Lib.Pipeline.Value
import Idealize.ShloMosaic.Lib.ValueIdx
import Idealize.ShloMosaic.PureOps.Ideal.Laws
import proofs.«122323_j2680059593303_2_alg».proof.Proof.AttentionSpec
import proofs.«122323_j2680059593303_2_alg».proof.Proof.LibBatchedMatmul

set_option maxRecDepth 16384

noncomputable section

namespace Cert.KernelIdeal.Core

open Cert.KernelIdeal Cert.KernelIdeal.Gen Cert.Attention
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- The body's arithmetic at (g, p, f): row p of chunk g of the queries against column f of (keysᵀ·values) of chunk g. -/
theorem pay_at (x0 x1 x2 : Vec Ideal S8x2048x32 .bf16) (g : Fin 8) (p : Fin 2048) (f : Fin 32) :
    k2_pay1 x0 x1 x2 (ix3 g p f) = ∑ d : Fin 32, x0 (ix3 g p d) * ∑ s : Fin 2048, x1 (ix3 g s d) * x2 (ix3 g s f) := by
  unfold k2_pay1
  refine (Cert.LibBatchedMatmul.matmul_chained dot_S8x2048x32_S8x32x32_S8x2048x32_2_1_1_2_0_0_wf
    dot_S8x2048x32_S8x32x32_S8x2048x32_2_1_1_2_0_0 rfl (some .fp32) _ _ g p f).trans ?_
  refine Finset.sum_congr rfl fun d _ => congrArg₂ (· * ·) ?_ ?_
  · rw [extf_apply, shapeCast_self]
  · refine (Cert.LibBatchedMatmul.matmul_gram dot_S8x2048x32_S8x2048x32_S8x32x32_1_1_2_2_0_0_wf
      dot_S8x2048x32_S8x2048x32_S8x32x32_1_1_2_2_0_0 rfl none _ _ g d f).trans ?_
    rw [shapeCast_self, shapeCast_self]

/-- The body's block is the whole-array function at chunks r … r+7, when its operands hold those chunks. -/
theorem block_at (Q K W : Hd.Idx → EReal) (x0 x1 x2 : Vec Ideal S8x2048x32 .bf16) (r : Nat) (hr : r + 8 ≤ 64)
    (h0 : ∀ (g : Fin 8) (p : Fin 2048) (d : Fin 32), x0 (ix3 g p d) = Q (ix3 (⟨r + g.val, by omega⟩ : Fin 64) p d))
    (h1 : ∀ (g : Fin 8) (p : Fin 2048) (d : Fin 32), x1 (ix3 g p d) = K (ix3 (⟨r + g.val, by omega⟩ : Fin 64) p d))
    (h2 : ∀ (g : Fin 8) (p : Fin 2048) (d : Fin 32), x2 (ix3 g p d) = W (ix3 (⟨r + g.val, by omega⟩ : Fin 64) p d))
    (g : Fin 8) (p : Fin 2048) (f : Fin 32) :
    k2_pay1 x0 x1 x2 (ix3 g p f) = core Q K W (ix3 (⟨r + g.val, by omega⟩ : Fin 64) p f) := by
  rw [pay_at, core_ix3]
  unfold coreAt
  simp only [h0, h1, h2]

/-- The printed index maps over the eight grid points: all four windows move together, eight chunks per point. -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0 :=
  (by decide +kernel : ∀ t : Fin grid2.N, _)

/-- What point t writes back is block t of the attention of the arrays as the region finds them. -/
theorem flushed_eq (c : Dev nD) (t : Fin cfg2.N) :
    (dat2 V c).flushed 3 t = ((cfg2.win 3).blk t).view.read (Elt Ideal) (core (V c main_v2) (V c main_v3) (V c main_v4)) := by
  show (cfg2.win 3).cut (grid2.coords t) ((dat2 V c).after 3 t) = _
  rw [after2_3]
  unfold out2_3
  rw [View.canon_unit_zero hz3]
  simp only [View.ld_unit_zero (S := S8x2048x32) hz3]
  obtain ⟨a0, a1, a2, b0, b1, b2, c0, c1, c2, d0, d1, d2⟩ := idx_facts t
  have ht : t.val < 8 := lt_of_lt_of_eq t.isLt N_2
  funext j
  show k2_pay1 (iblk2 V c 0 t) (iblk2 V c 1 t) (iblk2 V c 2 t) j
    = core (V c main_v2) (V c main_v3) (V c main_v4) (((cfg2.win 3).blk t).view.emb j)
  have key := block_at (V c main_v2) (V c main_v3) (V c main_v4) (iblk2 V c 0 t) (iblk2 V c 1 t) (iblk2 V c 2 t)
    (t.val * 8) (by omega)
    (fun g p d => by
      show V c main_v2 (((cfg2.win 0).blk t).view.emb (ix3 g p d)) = V c main_v2 _
      refine congrArg (V c main_v2) (funext fun a => Fin.ext ?_)
      match a with
      | ⟨0, _⟩ => show win2_0.index t (0 : Fin 3) * 8 + 1 * g.val = t.val * 8 + g.val; omega
      | ⟨1, _⟩ => show win2_0.index t (1 : Fin 3) * 2048 + 1 * p.val = p.val; omega
      | ⟨2, _⟩ => show win2_0.index t (2 : Fin 3) * 32 + 1 * d.val = d.val; omega)
    (fun g p d => by
      show V c main_v3 (((cfg2.win 1).blk t).view.emb (ix3 g p d)) = V c main_v3 _
      refine congrArg (V c main_v3) (funext fun a => Fin.ext ?_)
      match a with
      | ⟨0, _⟩ => show win2_1.index t (0 : Fin 3) * 8 + 1 * g.val = t.val * 8 + g.val; omega
      | ⟨1, _⟩ => show win2_1.index t (1 : Fin 3) * 2048 + 1 * p.val = p.val; omega
      | ⟨2, _⟩ => show win2_1.index t (2 : Fin 3) * 32 + 1 * d.val = d.val; omega)
    (fun g p d => by
      show V c main_v4 (((cfg2.win 2).blk t).view.emb (ix3 g p d)) = V c main_v4 _
      refine congrArg (V c main_v4) (funext fun a => Fin.ext ?_)
      match a with
      | ⟨0, _⟩ => show win2_2.index t (0 : Fin 3) * 8 + 1 * g.val = t.val * 8 + g.val; omega
      | ⟨1, _⟩ => show win2_2.index t (1 : Fin 3) * 2048 + 1 * p.val = p.val; omega
      | ⟨2, _⟩ => show win2_2.index t (2 : Fin 3) * 32 + 1 * d.val = d.val; omega)
    (j 0) (j 1) (j 2)
  refine (congrArg (k2_pay1 (iblk2 V c 0 t) (iblk2 V c 1 t) (iblk2 V c 2 t)) (eq_ix3 j)).trans (key.trans ?_)
  refine congrArg (core (V c main_v2) (V c main_v3) (V c main_v4)) (funext fun a => Fin.ext ?_)
  match a with
  | ⟨0, _⟩ => show t.val * 8 + (j 0).val = win2_3.index t (0 : Fin 3) * 8 + 1 * (j 0).val; omega
  | ⟨1, _⟩ => show (j 1).val = win2_3.index t (1 : Fin 3) * 2048 + 1 * (j 1).val; omega
  | ⟨2, _⟩ => show (j 2).val = win2_3.index t (2 : Fin 3) * 32 + 1 * (j 2).val; omega

/-- An index of the result array is in point t's block iff each coordinate is in the block's range on its axis. -/
theorem mem_blk (t : Fin cfg2.N) (i : S64x2048x32.Idx) :
    i ∈ ((cfg2.win 3).blk t).view.set ↔ ∀ a : Fin 3, win2_3.index t a * S8x2048x32.size a ≤ (i a).val ∧ (i a).val < win2_3.index t a * S8x2048x32.size a + S8x2048x32.size a := by
  show i ∈ ((View.whole main_v12).slice (win2_3.rect t)).set ↔ _
  rw [View.set_slice_whole, Rect.mem_set_unit]
  exact Iff.rfl

/-- Chunk g is in the block of the point numbered g / 8. -/
theorem cover (i : S64x2048x32.Idx) : ∃ t : Fin cfg2.N, (cfg2.win 3).flush t = true ∧ i ∈ ((cfg2.win 3).blk t).view.set := by
  have hi0 : (i 0).val < 64 := (i 0).isLt
  have hi1 : (i 1).val < 2048 := (i 1).isLt
  have hi2 : (i 2).val < 32 := (i 2).isLt
  let t : Fin cfg2.N := ⟨(i 0).val / 8, by rw [show cfg2.N = 8 from N_2]; omega⟩
  obtain ⟨a0, a1, a2, b0, b1, b2, c0, c1, c2, d0, d1, d2⟩ := idx_facts t
  have ht : t.val = (i 0).val / 8 := rfl
  refine ⟨t, flush2_3 t, ?_⟩
  rw [mem_blk]
  intro a
  match a with
  | ⟨0, _⟩ => show win2_3.index t (0 : Fin 3) * 8 ≤ (i 0).val ∧ (i 0).val < win2_3.index t (0 : Fin 3) * 8 + 8; omega
  | ⟨1, _⟩ => show win2_3.index t (1 : Fin 3) * 2048 ≤ (i 1).val ∧ (i 1).val < win2_3.index t (1 : Fin 3) * 2048 + 2048; omega
  | ⟨2, _⟩ => show win2_3.index t (2 : Fin 3) * 32 ≤ (i 2).val ∧ (i 2).val < win2_3.index t (2 : Fin 3) * 32 + 32; omega

/-- After the region the result array is the attention of the arrays the region found. -/
theorem final (c : Dev nD) : (dat2 V c).arrAt 3 cfg2.N = core (V c main_v2) (V c main_v3) (V c main_v4) :=
  (dat2 V c).arrAt_eq_of_cover 3 _ (fun t _ => flushed_eq V c t) cover

end Cert.KernelIdeal.Core

end
-- ==== Proof.RegionOutProj.lean ====
/-
  The last kernel region: the output projection y = x·Woᵀ + bo of the [4096,1024] token matrix, computed in four
  blocks of 1024 rows.  Block t of the result depends on block t of x (rows 1024·t … 1024·t+1023), on all of Wo
  and on all of bo: entry (p, f) of the block is Σ_k x(1024·t+p, k)·Wo(f,k) + bo(f), which is entry (1024·t+p, f) of
  the whole-array affine map.  The four blocks tile the array, so after the region the result array IS the affine
  map of the arrays the region found.
-/
import proofs.«122323_j2680059593303_2_alg».proof.Proof.Gen.KernelIdeal.Frame
import Idealize.ShloMosaic.Lib.Pipeline.Value
import Idealize.ShloMosaic.Lib.ValueIdx
import Idealize.ShloMosaic.PureOps.Ideal.Laws
import proofs.«122323_j2680059593303_2_alg».proof.Proof.AttentionSpec
import proofs.«122323_j2680059593303_2_alg».proof.Proof.LibRowDots
import proofs.«122323_j2680059593303_2_alg».proof.Proof.LibBiasRow

set_option maxRecDepth 16384

noncomputable section

namespace Cert.KernelIdeal.OutProj

open Cert.KernelIdeal Cert.KernelIdeal.Gen Cert.Attention
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic at (p, f): row p of the block against row f of the weights, plus entry f of the bias. -/
theorem pay_at (x0 : Vec Ideal S1024x1024 .f32) (x1 : Vec Ideal S1024x1024 .f32) (x2 : Vec Ideal S1024 .f32) (p f : Fin 1024) :
    k3_pay1 x0 x1 x2 (ix2 p f) = (∑ k : Fin 1024, x0 (ix2 p k) * x1 (ix2 f k)) + x2 (ix1 f) := by
  unfold k3_pay1
  rw [addf_apply]
  refine (congrArg₂ (· + ·)
    (Cert.LibRowDots.matmul_rows dot_S1024x1024_S1024x1024_S1024x1024_1_1_0_0_n_n_wf
      dot_S1024x1024_S1024x1024_S1024x1024_1_1_0_0_n_n rfl none _ _ p f)
    (Cert.LibBiasRow.bias_row_apply x2 shapeCasts_S1024_S1x1024 broadcasts_S1x1024_S1024x1024 p f)).trans ?_
  simp only [truncf_apply, shapeCast_self]

/-- The body's block is the whole-array affine map at rows r … r+1023, when its first operand holds those rows
    and the other two hold all of the weights and of the bias. -/
theorem block_at (X : Tok.Idx → EReal) (W : Wt.Idx → EReal) (B : Bs.Idx → EReal)
    (x0 : Vec Ideal S1024x1024 .f32) (x1 : Vec Ideal S1024x1024 .f32) (x2 : Vec Ideal S1024 .f32) (r : Nat) (hr : r + 1024 ≤ 4096)
    (h0 : ∀ (p k : Fin 1024), x0 (ix2 p k) = X (ix2 (⟨r + p.val, by omega⟩ : Fin 4096) k))
    (h1 : ∀ (f k : Fin 1024), x1 (ix2 f k) = W (ix2 f k)) (h2 : ∀ f : Fin 1024, x2 (ix1 f) = B (ix1 f))
    (p f : Fin 1024) :
    k3_pay1 x0 x1 x2 (ix2 p f) = affine X W B (ix2 (⟨r + p.val, by omega⟩ : Fin 4096) f) := by
  rw [pay_at, affine_ix2]
  unfold affineAt
  simp only [h0, h1, h2]

/-- The printed index maps over the four grid points: the token window and the result window move together, one
    block of 1024 rows per point; the weights and the bias stay whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

/-- What point t writes back is block t of the affine map of the arrays as the region finds them. -/
theorem flushed_eq (c : Dev nD) (t : Fin cfg3.N) :
    (dat3 V c).flushed 3 t = ((cfg3.win 3).blk t).view.read (Elt Ideal) (affine (V c main_v13) (V c main_arg9) (V c main_arg10)) := by
  show (cfg3.win 3).cut (grid3.coords t) ((dat3 V c).after 3 t) = _
  rw [after3_3]
  unfold out3_3
  rw [View.canon_unit_zero hz2]
  simp only [View.ld_unit_zero (S := S1024x1024) hz2, View.ld_unit_zero (S := S1024) hz1]
  obtain ⟨e0, e1, e2, e3, e4, e5, e6⟩ := idx_facts t
  have ht : t.val < 4 := lt_of_lt_of_eq t.isLt N_3
  funext j
  show k3_pay1 (iblk3 V c 0 t) (iblk3 V c 1 t) (iblk3 V c 2 t) j
    = affine (V c main_v13) (V c main_arg9) (V c main_arg10) (((cfg3.win 3).blk t).view.emb j)
  have key := block_at (V c main_v13) (V c main_arg9) (V c main_arg10) (iblk3 V c 0 t) (iblk3 V c 1 t) (iblk3 V c 2 t)
    (t.val * 1024) (by omega)
    (fun p k => by
      show V c main_v13 (((cfg3.win 0).blk t).view.emb (ix2 p k)) = V c main_v13 _
      refine congrArg (V c main_v13) (funext fun a => Fin.ext ?_)
      match a with
      | ⟨0, _⟩ => show win3_0.index t (0 : Fin 2) * 1024 + 1 * p.val = t.val * 1024 + p.val; omega
      | ⟨1, _⟩ => show win3_0.index t (1 : Fin 2) * 1024 + 1 * k.val = k.val; omega)
    (fun f k => by
      show V c main_arg9 (((cfg3.win 1).blk t).view.emb (ix2 f k)) = V c main_arg9 _
      refine congrArg (V c main_arg9) (funext fun a => Fin.ext ?_)
      match a with
      | ⟨0, _⟩ => show win3_1.index t (0 : Fin 2) * 1024 + 1 * f.val = f.val; omega
      | ⟨1, _⟩ => show win3_1.index t (1 : Fin 2) * 1024 + 1 * k.val = k.val; omega)
    (fun f => by
      show V c main_arg10 (((cfg3.win 2).blk t).view.emb (ix1 f)) = V c main_arg10 _
      refine congrArg (V c main_arg10) (funext fun a => Fin.ext ?_)
      match a with
      | ⟨0, _⟩ => show win3_2.index t (0 : Fin 1) * 1024 + 1 * f.val = f.val; omega)
    (j 0) (j 1)
  refine (congrArg (k3_pay1 (iblk3 V c 0 t) (iblk3 V c 1 t) (iblk3 V c 2 t)) (eq_ix2 j)).trans (key.trans ?_)
  refine congrArg (affine (V c main_v13) (V c main_arg9) (V c main_arg10)) (funext fun a => Fin.ext ?_)
  match a with
  | ⟨0, _⟩ => show t.val * 1024 + (j 0).val = win3_3.index t (0 : Fin 2) * 1024 + 1 * (j 0).val; omega
  | ⟨1, _⟩ => show (j 1).val = win3_3.index t (1 : Fin 2) * 1024 + 1 * (j 1).val; omega

/-- An index of the result array is in point t's block iff each coordinate is in the block's range on its axis. -/
theorem mem_blk (t : Fin cfg3.N) (i : S4096x1024.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v14).slice (win3_3.rect t)).set ↔ _
  rw [View.set_slice_whole, Rect.mem_set_unit]
  exact Iff.rfl

/-- Every row is in the block of the point numbered row / 1024. -/
theorem cover (i : S4096x1024.Idx) : ∃ t : Fin cfg3.N, (cfg3.win 3).flush t = true ∧ i ∈ ((cfg3.win 3).blk t).view.set := by
  have hi0 : (i 0).val < 4096 := (i 0).isLt
  have hi1 : (i 1).val < 1024 := (i 1).isLt
  let t : Fin cfg3.N := ⟨(i 0).val / 1024, by rw [show cfg3.N = 4 from N_3]; omega⟩
  obtain ⟨e0, e1, e2, e3, e4, e5, e6⟩ := idx_facts t
  have ht : t.val = (i 0).val / 1024 := rfl
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1024 ≤ (i 1).val ∧ (i 1).val < win3_3.index t (1 : Fin 2) * 1024 + 1024; omega

/-- After the region the result array is the affine map of the arrays the region found. -/
theorem final (c : Dev nD) :
    (dat3 V c).arrAt 3 cfg3.N = affine (V c main_v13) (V c main_arg9) (V c main_arg10) :=
  (dat3 V c).arrAt_eq_of_cover 3 _ (fun t _ => flushed_eq V c t) cover

end Cert.KernelIdeal.OutProj

end
-- ==== Proof.Boundaries.lean ====
/-
  The idealized kernel's two results as functions of its arguments.

  The buffer contents at the boundaries of @main's eight segments form a fold from the launch memory.  Read backwards
  from the last boundary: the attention result is the raw [2,2048,1024] view of the output projection's result array;
  that array is the affine map of (the raw token-matrix view of the attention core's result array, Wo, bo); the core's
  result array is the attention of the raw [64,2048,32] views of the three projections' result arrays; each
  projection's result array is the affine map of (the raw token-matrix view of the input, its weights, its bias).
  The averaged-scores result is written by the second region and by nothing after it; it is the scores of the two
  head-concatenated arrays, each a raw view, an exchange of the head and token axes, and a raw view of a projection.
  An argument that a region only reads, or that nothing touches, is carried through unchanged.
-/
import proofs.«122323_j2680059593303_2_alg».proof.Proof.Gen.KernelIdeal.Frame
import Idealize.ShloMosaic.Lib.StableHlo.Run
import proofs.«122323_j2680059593303_2_alg».proof.Proof.AttentionSpec
import proofs.«122323_j2680059593303_2_alg».proof.Proof.RegionQkv
import proofs.«122323_j2680059593303_2_alg».proof.Proof.RegionScores
import proofs.«122323_j2680059593303_2_alg».proof.Proof.RegionCore
import proofs.«122323_j2680059593303_2_alg».proof.Proof.RegionOutProj

set_option maxRecDepth 16384

noncomputable section

namespace Cert.KernelIdeal.Fold

open Cert.KernelIdeal Cert.KernelIdeal.Gen Cert.Attention
open Idealize.ShloMosaic Idealize.ShloMosaic.TcCoe Idealize.ShloMosaic.ValueIdx
open Idealize.SL Idealize.SL.Sem
open Idealize.ShloMosaic.Pipeline (Dat Cfg Window)

open Idealize.ShloMosaic.StableHlo

variable (m : (ℓ : Loc nD τ sig) → Buf (Elt Ideal) ℓ) (ρ : Dev nD → PrngReg)

/-! ## Before the first region -/

/-- The token matrix: the input read as 4096 rows. -/
theorem tokens (c : Dev nD) : W1 m ρ c (Proc.devRef .tc main_v0) = shapeCast S4096x1024 (m ((c : Thread nD τ).loc main_arg0)) shapeCasts_S2x2048x1024_S4096x1024 := by
  show StableHlo.after hostOps0 (W0 m ρ c) (Proc.devRef .tc main_v0) = _
  after_results
  rfl

/-- Argument 3 is not written before the first region. -/
theorem kept1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 4 is not written before the first region. -/
theorem kept1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 5 is not written before the first region. -/
theorem kept1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 6 is not written before the first region. -/
theorem kept1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 7 is not written before the first region. -/
theorem kept1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 8 is not written before the first region. -/
theorem kept1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-! ## The three projections -/

/-- The query projection's result array. -/
theorem proj_q (c : Dev nD) : W2 m ρ c (Proc.devRef .tc main_v1_0)
    = affine (shapeCast S4096x1024 (m ((c : Thread nD τ).loc main_arg0)) shapeCasts_S2x2048x1024_S4096x1024) (m ((c : Thread nD τ).loc main_arg3)) (m ((c : Thread nD τ).loc main_arg4)) := by
  refine (W2_arr m ρ c 7).trans ((Qkv.Query.final (V1 m ρ) c).trans ?_)
  show affine (W1 m ρ c (Proc.devRef .tc main_v0)) (W1 m ρ c (Proc.devRef .tc main_arg3)) (W1 m ρ c (Proc.devRef .tc main_arg4)) = _
  rw [tokens, kept1_arg3, kept1_arg4]

/-- The key projection's result array. -/
theorem proj_k (c : Dev nD) : W2 m ρ c (Proc.devRef .tc main_v1_1)
    = affine (shapeCast S4096x1024 (m ((c : Thread nD τ).loc main_arg0)) shapeCasts_S2x2048x1024_S4096x1024) (m ((c : Thread nD τ).loc main_arg5)) (m ((c : Thread nD τ).loc main_arg6)) := by
  refine (W2_arr m ρ c 8).trans ((Qkv.Key.final (V1 m ρ) c).trans ?_)
  show affine (W1 m ρ c (Proc.devRef .tc main_v0)) (W1 m ρ c (Proc.devRef .tc main_arg5)) (W1 m ρ c (Proc.devRef .tc main_arg6)) = _
  rw [tokens, kept1_arg5, kept1_arg6]

/-- The value projection's result array. -/
theorem proj_v (c : Dev nD) : W2 m ρ c (Proc.devRef .tc main_v1_2)
    = affine (shapeCast S4096x1024 (m ((c : Thread nD τ).loc main_arg0)) shapeCasts_S2x2048x1024_S4096x1024) (m ((c : Thread nD τ).loc main_arg7)) (m ((c : Thread nD τ).loc main_arg8)) := by
  refine (W2_arr m ρ c 9).trans ((Qkv.Value.final (V1 m ρ) c).trans ?_)
  show affine (W1 m ρ c (Proc.devRef .tc main_v0)) (W1 m ρ c (Proc.devRef .tc main_arg7)) (W1 m ρ c (Proc.devRef .tc main_arg8)) = _
  rw [tokens, kept1_arg7, kept1_arg8]

/-! ## Between the first and the second region: the per-head views and the head-concatenated arrays -/

theorem heads_q (c : Dev nD) : W3 m ρ c (Proc.devRef .tc main_v2) = shapeCast S64x2048x32 (W2 m ρ c (Proc.devRef .tc main_v1_0)) shapeCasts_S4096x1024_S64x2048x32 := by
  show StableHlo.after hostOps1 (W2 m ρ c) (Proc.devRef .tc main_v2) = _
  after_results
  rfl

theorem heads_k (c : Dev nD) : W3 m ρ c (Proc.devRef .tc main_v3) = shapeCast S64x2048x32 (W2 m ρ c (Proc.devRef .tc main_v1_1)) shapeCasts_S4096x1024_S64x2048x32 := by
  show StableHlo.after hostOps1 (W2 m ρ c) (Proc.devRef .tc main_v3) = _
  after_results
  rfl

theorem heads_v (c : Dev nD) : W3 m ρ c (Proc.devRef .tc main_v4) = shapeCast S64x2048x32 (W2 m ρ c (Proc.devRef .tc main_v1_2)) shapeCasts_S4096x1024_S64x2048x32 := by
  show StableHlo.after hostOps1 (W2 m ρ c) (Proc.devRef .tc main_v4) = _
  after_results
  rfl

theorem cat_q (c : Dev nD) : W3 m ρ c (Proc.devRef .tc main_v7)
    = shapeCast S2x2048x1024 (transpose S2x2048x32x32 [0, 2, 1, 3] (shapeCast S2x32x2048x32 (shapeCast S64x2048x32 (W2 m ρ c (Proc.devRef .tc main_v1_0)) shapeCasts_S4096x1024_S64x2048x32) shapeCasts_S64x2048x32_S2x32x2048x32) transposes_S2x32x2048x32_S2x2048x32x32_0_2_1_3) shapeCasts_S2x2048x32x32_S2x2048x1024 := by
  show StableHlo.after hostOps1 (W2 m ρ c) (Proc.devRef .tc main_v7) = _
  after_results
  rfl

theorem cat_k (c : Dev nD) : W3 m ρ c (Proc.devRef .tc main_v10)
    = shapeCast S2x2048x1024 (transpose S2x2048x32x32 [0, 2, 1, 3] (shapeCast S2x32x2048x32 (shapeCast S64x2048x32 (W2 m ρ c (Proc.devRef .tc main_v1_1)) shapeCasts_S4096x1024_S64x2048x32) shapeCasts_S64x2048x32_S2x32x2048x32) transposes_S2x32x2048x32_S2x2048x32x32_0_2_1_3) shapeCasts_S2x2048x32x32_S2x2048x1024 := by
  show StableHlo.after hostOps1 (W2 m ρ c) (Proc.devRef .tc main_v10) = _
  after_results
  rfl

/-! ## The second and third regions -/

/-- The averaged-scores array after the second region. -/
theorem scores_at4 (c : Dev nD) : W4 m ρ c (Proc.devRef .tc main_v11) = Scores.scores (W3 m ρ c (Proc.devRef .tc main_v7)) (W3 m ρ c (Proc.devRef .tc main_v10)) :=
  (W4_arr m ρ c 2).trans (Scores.final (V3 m ρ) c)

/-- The attention core's result array after the third region. -/
theorem core_at5 (c : Dev nD) : W5 m ρ c (Proc.devRef .tc main_v12) = core (W3 m ρ c (Proc.devRef .tc main_v2)) (W3 m ρ c (Proc.devRef .tc main_v3)) (W3 m ρ c (Proc.devRef .tc main_v4)) := by
  refine (W5_arr m ρ c 3).trans ((Core.final (V4 m ρ) c).trans ?_)
  show core (W4 m ρ c (Proc.devRef .tc main_v2)) (W4 m ρ c (Proc.devRef .tc main_v3)) (W4 m ρ c (Proc.devRef .tc main_v4)) = _
  rw [W4_of_ne m ρ c main_v2 (by decide), W4_of_ne m ρ c main_v3 (by decide), W4_of_ne m ρ c main_v4 (by decide)]

/-! ## The output projection -/

theorem core_rows (c : Dev nD) : W6 m ρ c (Proc.devRef .tc main_v13) = shapeCast S4096x1024 (W5 m ρ c (Proc.devRef .tc main_v12)) shapeCasts_S64x2048x32_S4096x1024 := by
  show StableHlo.after hostOps3 (W5 m ρ c) (Proc.devRef .tc main_v13) = _
  after_results
  rfl

/-- Argument 9 is written by no operation and no region before the last region. -/
theorem kept6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Argument 10 is written by no operation and no region before the last region. -/
theorem kept6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The output projection's result array. -/
theorem out_at7 (c : Dev nD) : W7 m ρ c (Proc.devRef .tc main_v14)
    = affine (shapeCast S4096x1024 (W5 m ρ c (Proc.devRef .tc main_v12)) shapeCasts_S64x2048x32_S4096x1024) (m ((c : Thread nD τ).loc main_arg9)) (m ((c : Thread nD τ).loc main_arg10)) := by
  refine (W7_arr m ρ c 3).trans ((OutProj.final (V6 m ρ) c).trans ?_)
  show affine (W6 m ρ c (Proc.devRef .tc main_v13)) (W6 m ρ c (Proc.devRef .tc main_arg9)) (W6 m ρ c (Proc.devRef .tc main_arg10)) = _
  rw [core_rows, kept6_arg9, kept6_arg10]

/-! ## The two results -/

/-- The attention result at the last boundary. -/
theorem attn_at8 (c : Dev nD) : W8 m ρ c (Proc.devRef .tc main_v15) = shapeCast S2x2048x1024 (W7 m ρ c (Proc.devRef .tc main_v14)) shapeCasts_S4096x1024_S2x2048x1024 := by
  show StableHlo.after hostOps4 (W7 m ρ c) (Proc.devRef .tc main_v15) = _
  after_results
  rfl

/-- Nothing after the second region writes the averaged scores. -/
theorem scores_at8 (c : Dev nD) : W8 m ρ c (Proc.devRef .tc main_v11) = W4 m ρ c (Proc.devRef .tc main_v11) :=
  calc W8 m ρ c (Proc.devRef .tc main_v11)
    _ = W7 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v11) := W7_of_ne m ρ c main_v11 (by decide)
    _ = W5 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v11) := W5_of_ne m ρ c main_v11 (by decide)

end Cert.KernelIdeal.Fold

end
-- ==== Proof.LibLeadingPair.lean ====
/-
  Merging the two leading axes of a rank-4 array. An array of shape [a, b, c, d] and the array of shape [n, c, d] with
  n = a·b that a row-major reshape makes of it hold the same elements in the same order: plane p·b + q of the second is
  plane (p, q) of the first, and inside a plane nothing moves. Both directions of the reshape are read here at an index,
  for any element type: [a, b, c, d] → [n, c, d] at a merged index, and [n, c, d] → [a, b, c, d] at any index.
-/
import Idealize.ShloMosaic.Lib.Pipeline.Value
import Idealize.ShloMosaic.Lib.ValueIdx

noncomputable section

namespace Cert.LibLeadingPair

open Idealize.ShloMosaic Idealize.ShloMosaic.ValueIdx

variable {α : Type} {a b c d n : Nat}

/-- Plane (p, q) with p < a and q < b has a number below a·b. -/
theorem plane_lt {p q : Nat} (hp : p < a) (hq : q < b) : p * b + q < a * b :=
  calc p * b + q < p * b + b := by omega
    _ = (p + 1) * b := by rw [Nat.add_mul, Nat.one_mul]
    _ ≤ a * b := Nat.mul_le_mul_right b hp

/-- An index of [n, c, d] whose plane is p·b + q and an index (p, q, ·, ·) of [a, b, c, d] with the same two trailing
    coordinates sit at the same row-major position: ((p·b + q)·c + y)·d + z on both sides. -/
theorem rowMajor_merged (i : (⟨4, ![a, b, c, d]⟩ : Shape).Idx) (k : (⟨3, ![n, c, d]⟩ : Shape).Idx)
    (h0 : (k 0).val = (i 0).val * b + (i 1).val) (h1 : (k 1).val = (i 2).val) (h2 : (k 2).val = (i 3).val) :
    ((⟨3, ![n, c, d]⟩ : Shape).rowMajor k).val = ((⟨4, ![a, b, c, d]⟩ : Shape).rowMajor i).val := by
  rw [Shape.rowMajor_val_three, Shape.rowMajor_val_four, h0, h1, h2]
  rfl

/-- The reshape [a, b, c, d] → [n, c, d] read at an index whose plane is p·b + q: the operand at (p, q, ·, ·). -/
theorem shapeCast_merge_apply (x : (⟨4, ![a, b, c, d]⟩ : Shape).Idx → α)
    (h : (⟨4, ![a, b, c, d]⟩ : Shape).ShapeCasts ⟨3, ![n, c, d]⟩)
    (k : (⟨3, ![n, c, d]⟩ : Shape).Idx) (i : (⟨4, ![a, b, c, d]⟩ : Shape).Idx)
    (h0 : (k 0).val = (i 0).val * b + (i 1).val) (h1 : (k 1).val = (i 2).val) (h2 : (k 2).val = (i 3).val) :
    shapeCast ⟨3, ![n, c, d]⟩ x h k = x i :=
  shapeCast_apply x h k i (rowMajor_merged i k h0 h1 h2).symm

/-- The reshape [n, c, d] → [a, b, c, d] read at (p, q, ·, ·): the operand at the index whose plane is p·b + q. -/
theorem shapeCast_split_apply (z : (⟨3, ![n, c, d]⟩ : Shape).Idx → α)
    (h : (⟨3, ![n, c, d]⟩ : Shape).ShapeCasts ⟨4, ![a, b, c, d]⟩)
    (i : (⟨4, ![a, b, c, d]⟩ : Shape).Idx) (k : (⟨3, ![n, c, d]⟩ : Shape).Idx)
    (h0 : (k 0).val = (i 0).val * b + (i 1).val) (h1 : (k 1).val = (i 2).val) (h2 : (k 2).val = (i 3).val) :
    shapeCast ⟨4, ![a, b, c, d]⟩ z h i = z k :=
  shapeCast_apply z h i k (rowMajor_merged i k h0 h1 h2)

/-- The index of [n, c, d] that holds what (p, q, y, z) of [a, b, c, d] holds: (p·b + q, y, z). -/
def merged (hn : n = a * b) (i : (⟨4, ![a, b, c, d]⟩ : Shape).Idx) : (⟨3, ![n, c, d]⟩ : Shape).Idx :=
  ix3 ⟨(i 0).val * b + (i 1).val, hn ▸ plane_lt (i 0).isLt (i 1).isLt⟩ (i 2) (i 3)

/-- [a, b, c, d] → [n, c, d] at the merged index. -/
theorem shapeCast_merge_at (hn : n = a * b) (x : (⟨4, ![a, b, c, d]⟩ : Shape).Idx → α)
    (h : (⟨4, ![a, b, c, d]⟩ : Shape).ShapeCasts ⟨3, ![n, c, d]⟩) (i : (⟨4, ![a, b, c, d]⟩ : Shape).Idx) :
    shapeCast ⟨3, ![n, c, d]⟩ x h (merged hn i) = x i :=
  shapeCast_merge_apply x h (merged hn i) i rfl rfl rfl

/-- [n, c, d] → [a, b, c, d] at any index. -/
theorem shapeCast_split_at (hn : n = a * b) (z : (⟨3, ![n, c, d]⟩ : Shape).Idx → α)
    (h : (⟨3, ![n, c, d]⟩ : Shape).ShapeCasts ⟨4, ![a, b, c, d]⟩) (i : (⟨4, ![a, b, c, d]⟩ : Shape).Idx) :
    shapeCast ⟨4, ![a, b, c, d]⟩ z h i = z (merged hn i) :=
  shapeCast_split_apply z h i (merged hn i) rfl rfl rfl

end Cert.LibLeadingPair

end
-- ==== Proof.ConcatHeads.lean ====
/-
  The head-concatenated arrays.

  From a [64,2048,32] array X (chunk 32·b + H is head H of batch element b) the kernel's host side builds the
  [2,2048,1024] array that holds, for batch element b and token t, the 32 lanes of every head side by side: the raw
  view [64,2048,32] -> [2,32,2048,32] splits the chunk number into (b, H); the head and token axes are exchanged; the
  raw view [2,2048,32,32] -> [2,2048,1024] merges (H, d) into lane 32·H + d.  So entry (b, t, 32·H + d) of the result is
  X(32·b + H, t, d), and the scores of two such arrays are the head-averaged scores of the arrays they were built from.
-/
import Idealize.ShloMosaic.Lib.Pipeline.Value
import Idealize.ShloMosaic.Lib.ValueIdx
import proofs.«122323_j2680059593303_2_alg».proof.Proof.AttentionSpec
import proofs.«122323_j2680059593303_2_alg».proof.Proof.LibLeadingPair
import proofs.«122323_j2680059593303_2_alg».proof.Proof.RegionScores

set_option maxRecDepth 16384

noncomputable section

namespace Cert.Attention.Concat

open Cert.Attention Idealize.ShloMosaic Idealize.ShloMosaic.ValueIdx

variable {α : Type}

/-- The raw view that merges the last two axes: lane 32·H + d of (b, t) is entry (b, t, H, d). -/
theorem merge_lanes_apply (Y : (⟨4, ![2, 2048, 32, 32]⟩ : Shape).Idx → α)
    (h : (⟨4, ![2, 2048, 32, 32]⟩ : Shape).ShapeCasts ⟨3, ![2, 2048, 1024]⟩) (b : Fin 2) (t : Fin 2048) (H d : Fin 32) :
    shapeCast ⟨3, ![2, 2048, 1024]⟩ Y h (ix3 b t (lane H d)) = Y (ix4 b t H d) :=
  shapeCast_apply Y h _ _ (by
    rw [Shape.rowMajor_val_four, Shape.rowMajor_val_three]
    show ((b.val * 2048 + t.val) * 32 + H.val) * 32 + d.val = (b.val * 2048 + t.val) * 1024 + (H.val * 32 + d.val)
    omega)

/-- The exchange of the head and token axes. -/
theorem swap_axes_apply (Z : (⟨4, ![2, 32, 2048, 32]⟩ : Shape).Idx → α)
    (h : (⟨4, ![2, 32, 2048, 32]⟩ : Shape).Transposes [0, 2, 1, 3] ⟨4, ![2, 2048, 32, 32]⟩) (b : Fin 2) (t : Fin 2048) (H d : Fin 32) :
    transpose ⟨4, ![2, 2048, 32, 32]⟩ [0, 2, 1, 3] Z h (ix4 b t H d) = Z (ix4 b H t d) :=
  transpose_apply _ Z h _ _ fun c => match c with | ⟨0, _⟩ => rfl | ⟨1, _⟩ => rfl | ⟨2, _⟩ => rfl | ⟨3, _⟩ => rfl

/-- The raw view that splits the chunk number: entry (b, H, t, d) is chunk 32·b + H at (t, d). -/
theorem split_heads_apply (X : (⟨3, ![64, 2048, 32]⟩ : Shape).Idx → α)
    (h : (⟨3, ![64, 2048, 32]⟩ : Shape).ShapeCasts ⟨4, ![2, 32, 2048, 32]⟩) (b : Fin 2) (t : Fin 2048) (H d : Fin 32) :
    shapeCast ⟨4, ![2, 32, 2048, 32]⟩ X h (ix4 b H t d) = X (ix3 (head b H) t d) :=
  Cert.LibLeadingPair.shapeCast_split_apply X h (ix4 b H t d) (ix3 (head b H) t d) rfl rfl rfl

/-- The three together. -/
theorem concat_apply (X : (⟨3, ![64, 2048, 32]⟩ : Shape).Idx → α)
    (h1 : (⟨3, ![64, 2048, 32]⟩ : Shape).ShapeCasts ⟨4, ![2, 32, 2048, 32]⟩)
    (h2 : (⟨4, ![2, 32, 2048, 32]⟩ : Shape).Transposes [0, 2, 1, 3] ⟨4, ![2, 2048, 32, 32]⟩)
    (h3 : (⟨4, ![2, 2048, 32, 32]⟩ : Shape).ShapeCasts ⟨3, ![2, 2048, 1024]⟩) (b : Fin 2) (t : Fin 2048) (H d : Fin 32) :
    shapeCast ⟨3, ![2, 2048, 1024]⟩ (transpose ⟨4, ![2, 2048, 32, 32]⟩ [0, 2, 1, 3] (shapeCast ⟨4, ![2, 32, 2048, 32]⟩ X h1) h2) h3 (ix3 b t (lane H d))
      = X (ix3 (head b H) t d) :=
  (merge_lanes_apply _ h3 b t H d).trans ((swap_axes_apply _ h2 b t H d).trans (split_heads_apply X h1 b t H d))

/-- The scores of two head-concatenated arrays are the head-averaged scores of the arrays they were built from. -/
theorem scores_concat (Q K : Hd.Idx → EReal)
    (h1 : (⟨3, ![64, 2048, 32]⟩ : Shape).ShapeCasts ⟨4, ![2, 32, 2048, 32]⟩)
    (h2 : (⟨4, ![2, 32, 2048, 32]⟩ : Shape).Transposes [0, 2, 1, 3] ⟨4, ![2, 2048, 32, 32]⟩)
    (h3 : (⟨4, ![2, 2048, 32, 32]⟩ : Shape).ShapeCasts ⟨3, ![2, 2048, 1024]⟩) :
    Cert.KernelIdeal.Scores.scores
      (shapeCast ⟨3, ![2, 2048, 1024]⟩ (transpose ⟨4, ![2, 2048, 32, 32]⟩ [0, 2, 1, 3] (shapeCast ⟨4, ![2, 32, 2048, 32]⟩ Q h1) h2) h3)
      (shapeCast ⟨3, ![2, 2048, 1024]⟩ (transpose ⟨4, ![2, 2048, 32, 32]⟩ [0, 2, 1, 3] (shapeCast ⟨4, ![2, 32, 2048, 32]⟩ K h1) h2) h3)
      = mean Q K := by
  funext i
  obtain ⟨b, t, s, rfl⟩ : ∃ (b : Fin 2) (t s : Fin 2048), i = ix3 b t s := ⟨i 0, i 1, i 2, eq_ix3 i⟩
  rw [Cert.KernelIdeal.Scores.scores_ix3, mean_ix3]
  exact mean_of_concat Q K _ _ (fun b t H d => concat_apply Q h1 h2 h3 b t H d) (fun b t H d => concat_apply K h1 h2 h3 b t H d) b t s

end Cert.Attention.Concat

end
-- ==== Proof.KernelRun.lean ====
/-
  The idealized kernel's run with its two results named.

  @main is eight segments: stretches of host operations and four kernel regions.  The buffer contents at each segment
  boundary form a fold from the launch memory (the generated frame module's W0 … W8); after the last segment every
  unscoped buffer holds the last boundary's contents W8.  Read at the two result buffers this names the results;
  read at the argument buffers it gives back the launch contents.
-/
import proofs.«122323_j2680059593303_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two results end at the last boundary's
    contents and the eleven arguments end as launched. -/
theorem run : θ_run defs (onTc (τ := τ) (main (F := F))) ⟨m, fun _ => 0, ρ⟩ (fun r => ∀ c : Dev nD,
      r.2.mem ((c.tc : Thread nD τ).loc main_v15) = W8 m ρ c (Proc.devRef .tc main_v15)
      ∧ r.2.mem ((c.tc : Thread nD τ).loc main_v11) = W8 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v15 (by decide)),
       h c _ (mem_uc main_v11 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Results

end
-- ==== Proof.KernelValue.lean ====
/-
  The idealized kernel's two results as the layer's functions of its arguments: the attention result is the raw
  [2,2048,1024] view of (core(Q,K,V) read as a token matrix)·Woᵀ + bo, and the averaged-scores result is mean(Q,K),
  where Q, K, V are the raw [64,2048,32] views of the three projections of the input read as a token matrix.
-/
import proofs.«122323_j2680059593303_2_alg».proof.Proof.Boundaries
import proofs.«122323_j2680059593303_2_alg».proof.Proof.ConcatHeads
import proofs.«122323_j2680059593303_2_alg».proof.Proof.KernelRun

set_option maxRecDepth 16384

noncomputable section

namespace Cert.KernelIdeal.Fold

open Cert.KernelIdeal Cert.KernelIdeal.Gen Cert.Attention
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The attention result. -/
theorem attn_value (c : Dev nD) : W8 m ρ c (Proc.devRef .tc main_v15)
    = shapeCast S2x2048x1024 (affine (shapeCast S4096x1024 (core (shapeCast S64x2048x32 (affine (shapeCast S4096x1024 (m ((c : Thread nD τ).loc main_arg0)) shapeCasts_S2x2048x1024_S4096x1024) (m ((c : Thread nD τ).loc main_arg3)) (m ((c : Thread nD τ).loc main_arg4))) shapeCasts_S4096x1024_S64x2048x32) (shapeCast S64x2048x32 (affine (shapeCast S4096x1024 (m ((c : Thread nD τ).loc main_arg0)) shapeCasts_S2x2048x1024_S4096x1024) (m ((c : Thread nD τ).loc main_arg5)) (m ((c : Thread nD τ).loc main_arg6))) shapeCasts_S4096x1024_S64x2048x32) (shapeCast S64x2048x32 (affine (shapeCast S4096x1024 (m ((c : Thread nD τ).loc main_arg0)) shapeCasts_S2x2048x1024_S4096x1024) (m ((c : Thread nD τ).loc main_arg7)) (m ((c : Thread nD τ).loc main_arg8))) shapeCasts_S4096x1024_S64x2048x32)) shapeCasts_S64x2048x32_S4096x1024) (m ((c : Thread nD τ).loc main_arg9)) (m ((c : Thread nD τ).loc main_arg10))) shapeCasts_S4096x1024_S2x2048x1024 := by
  rw [attn_at8, out_at7, core_at5, heads_q, heads_k, heads_v, proj_q, proj_k, proj_v]

/-- The averaged scores. -/
theorem avg_value (c : Dev nD) : W8 m ρ c (Proc.devRef .tc main_v11)
    = mean (shapeCast S64x2048x32 (affine (shapeCast S4096x1024 (m ((c : Thread nD τ).loc main_arg0)) shapeCasts_S2x2048x1024_S4096x1024) (m ((c : Thread nD τ).loc main_arg3)) (m ((c : Thread nD τ).loc main_arg4))) shapeCasts_S4096x1024_S64x2048x32) (shapeCast S64x2048x32 (affine (shapeCast S4096x1024 (m ((c : Thread nD τ).loc main_arg0)) shapeCasts_S2x2048x1024_S4096x1024) (m ((c : Thread nD τ).loc main_arg5)) (m ((c : Thread nD τ).loc main_arg6))) shapeCasts_S4096x1024_S64x2048x32) := by
  rw [scores_at8, scores_at4, cat_q, cat_k, proj_q, proj_k]
  exact Cert.Attention.Concat.scores_concat _ _ shapeCasts_S64x2048x32_S2x32x2048x32 transposes_S2x32x2048x32_S2x2048x32x32_0_2_1_3 shapeCasts_S2x2048x32x32_S2x2048x1024

open Idealize.SL.Sem in
/-- The kernel's run with its two results at the layer's functions of the arguments, the arguments unchanged. -/
theorem run_layer : θ_run defs (onTc (τ := τ) (main (F := Ideal))) ⟨m, fun _ => 0, ρ⟩ (fun r => ∀ c : Dev nD,
      r.2.mem ((c.tc : Thread nD τ).loc main_v15) = shapeCast S2x2048x1024 (affine (shapeCast S4096x1024 (core (shapeCast S64x2048x32 (affine (shapeCast S4096x1024 (m ((c.tc : Thread nD τ).loc main_arg0)) shapeCasts_S2x2048x1024_S4096x1024) (m ((c.tc : Thread nD τ).loc main_arg3)) (m ((c.tc : Thread nD τ).loc main_arg4))) shapeCasts_S4096x1024_S64x2048x32) (shapeCast S64x2048x32 (affine (shapeCast S4096x1024 (m ((c.tc : Thread nD τ).loc main_arg0)) shapeCasts_S2x2048x1024_S4096x1024) (m ((c.tc : Thread nD τ).loc main_arg5)) (m ((c.tc : Thread nD τ).loc main_arg6))) shapeCasts_S4096x1024_S64x2048x32) (shapeCast S64x2048x32 (affine (shapeCast S4096x1024 (m ((c.tc : Thread nD τ).loc main_arg0)) shapeCasts_S2x2048x1024_S4096x1024) (m ((c.tc : Thread nD τ).loc main_arg7)) (m ((c.tc : Thread nD τ).loc main_arg8))) shapeCasts_S4096x1024_S64x2048x32)) shapeCasts_S64x2048x32_S4096x1024) (m ((c.tc : Thread nD τ).loc main_arg9)) (m ((c.tc : Thread nD τ).loc main_arg10))) shapeCasts_S4096x1024_S2x2048x1024
      ∧ r.2.mem ((c.tc : Thread nD τ).loc main_v11) = mean (shapeCast S64x2048x32 (affine (shapeCast S4096x1024 (m ((c.tc : Thread nD τ).loc main_arg0)) shapeCasts_S2x2048x1024_S4096x1024) (m ((c.tc : Thread nD τ).loc main_arg3)) (m ((c.tc : Thread nD τ).loc main_arg4))) shapeCasts_S4096x1024_S64x2048x32) (shapeCast S64x2048x32 (affine (shapeCast S4096x1024 (m ((c.tc : Thread nD τ).loc main_arg0)) shapeCasts_S2x2048x1024_S4096x1024) (m ((c.tc : Thread nD τ).loc main_arg5)) (m ((c.tc : Thread nD τ).loc main_arg6))) shapeCasts_S4096x1024_S64x2048x32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (attn_value m ρ c), (h c).2.1.trans (avg_value m ρ c), (h c).2.2⟩)
    (Cert.KernelIdeal.Results.run m ρ)

end Cert.KernelIdeal.Fold

end
-- ==== Proof.ReferenceValue.lean ====
/-
  The reference program's stages are the layer's specification functions.

  The reference forms three affine maps x·Wᵀ + b of the same token matrix (the [2,2048,1024] input read as 4096 rows),
  reads each result as a [64,2048,32] array through the raw row-major view, multiplies chunk by chunk
  (scores = Q·Kᵀ, then scores·V), applies a fourth affine map to the result read back as a token matrix, and averages
  the scores over the 32 chunks of each batch element.  Each stage is read at an index: a matrix product is the sum
  over the contracted coordinate, a transposed weight is read with its coordinates exchanged, a bias row is read at the
  column, and the split of the leading axis 64 = 2·32 sends (b, H) to chunk 32·b + H.
-/
import Mathlib.Tactic
import proofs.«122323_j2680059593303_2_alg».proof.Proof.Gen.ReferenceIdeal.Read
import proofs.«122323_j2680059593303_2_alg».proof.Proof.AttentionSpec

noncomputable section

namespace Cert.ReferenceIdeal.RefValue

open Cert.ReferenceIdeal Cert.ReferenceIdeal.Gen Cert.ReferenceIdeal.Read Cert.Attention
open Idealize.ShloMosaic Idealize.ShloMosaic.ValueIdx

/-! ## Indices of the stages, by coordinates -/

/-- Row p of the left operand at contraction position k. -/
theorem lidx_rows (i : S4096x1024.Idx) (k : Fin 1024) : lidx_main_v2 i k = ix2 (n0 := 4096) (n1 := 1024) (i 0) k := by
  funext a; match a with | ⟨0, _⟩ => rfl | ⟨1, _⟩ => rfl

/-- The transposed weight at (k, f) is the weight at (f, k). -/
theorem widx_rows (i : S4096x1024.Idx) (k : Fin 1024) : idx_main_v1 (ridx_main_v2 i k) = ix2 (n0 := 1024) (n1 := 1024) (i 1) k := by
  funext a; match a with | ⟨0, _⟩ => rfl | ⟨1, _⟩ => rfl

/-- The bias row spread over the tokens is read at the column. -/
theorem bidx_rows (i : S4096x1024.Idx) : idx_main_v3 (idx_main_v4 i) = ix1 (n := 1024) (i 1) := by
  funext a; match a with | ⟨0, _⟩ => rfl

/-- One entry of x·Wᵀ + b, spelled as the stages spell it. -/
theorem affine_entry (y : S4096x1024.Idx → EReal) (W : S1024x1024.Idx → EReal) (b : S1024.Idx → EReal) (i : S4096x1024.Idx) :
    (∑ k : Fin 1024, y (lidx_main_v2 i k) * W (idx_main_v1 (ridx_main_v2 i k))) + b (idx_main_v3 (idx_main_v4 i))
      = affine y W b i := by
  simp only [lidx_rows, widx_rows, bidx_rows]
  rfl

/-! ## The four affine maps -/

/-- The query projection is x·Wqᵀ + bq of the token matrix. -/
theorem proj_q (x0 : (⟨S2x2048x1024, .f32⟩ : BufTy).Contents (Elt Ideal)) (x3 : (⟨S1024x1024, .f32⟩ : BufTy).Contents (Elt Ideal))
    (x4 : (⟨S1024, .f32⟩ : BufTy).Contents (Elt Ideal)) :
    val_main_v5 (F := Ideal) x0 x3 x4 = affine (val_main_v0 (F := Ideal) x0) x3 x4 := by
  funext i
  rw [val_main_v5_apply, val_main_v2_apply, val_main_v4_apply, val_main_v3_apply]
  simp only [val_main_v1_apply]
  exact affine_entry (val_main_v0 (F := Ideal) x0) x3 x4 i

/-- The key projection is x·Wkᵀ + bk of the same token matrix. -/
theorem proj_k (x0 : (⟨S2x2048x1024, .f32⟩ : BufTy).Contents (Elt Ideal)) (x5 : (⟨S1024x1024, .f32⟩ : BufTy).Contents (Elt Ideal))
    (x6 : (⟨S1024, .f32⟩ : BufTy).Contents (Elt Ideal)) :
    val_main_v11 (F := Ideal) x0 x5 x6 = affine (val_main_v0 (F := Ideal) x0) x5 x6 := by
  funext i
  rw [val_main_v11_apply, val_main_v8_apply, val_main_v10_apply, val_main_v9_apply]
  simp only [val_main_v7_apply]
  exact affine_entry (val_main_v0 (F := Ideal) x0) x5 x6 i

/-- The value projection is x·Wvᵀ + bv of the same token matrix. -/
theorem proj_v (x0 : (⟨S2x2048x1024, .f32⟩ : BufTy).Contents (Elt Ideal)) (x7 : (⟨S1024x1024, .f32⟩ : BufTy).Contents (Elt Ideal))
    (x8 : (⟨S1024, .f32⟩ : BufTy).Contents (Elt Ideal)) :
    val_main_v17 (F := Ideal) x0 x7 x8 = affine (val_main_v0 (F := Ideal) x0) x7 x8 := by
  funext i
  rw [val_main_v17_apply, val_main_v14_apply, val_main_v16_apply, val_main_v15_apply]
  simp only [val_main_v13_apply]
  exact affine_entry (val_main_v0 (F := Ideal) x0) x7 x8 i

/-- The output projection is y·Woᵀ + bo of the attention result read back as a token matrix. -/
theorem proj_o (x0 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) :
    val_main_v26 (F := Ideal) x0 x3 x4 x5 x6 x7 x8 x9 x10
      = affine (val_main_v21 (F := Ideal) x0 x3 x4 x5 x6 x7 x8) x9 x10 := by
  funext i
  rw [val_main_v26_apply, val_main_v23_apply, val_main_v25_apply, val_main_v24_apply]
  simp only [val_main_v22_apply]
  exact affine_entry (val_main_v21 (F := Ideal) x0 x3 x4 x5 x6 x7 x8) x9 x10 i

/-! ## The attention with the scores formed first -/

/-- Row t of chunk g of the queries at lane d, whatever the key position of the score. -/
theorem lidx_scores (g : Fin 64) (t s : Fin 2048) (d : Fin 32) :
    lidx_main_v19 (ix3 g t s : S64x2048x2048.Idx) d = ix3 g t d := by
  funext a; match a with | ⟨0, _⟩ => rfl | ⟨1, _⟩ => rfl | ⟨2, _⟩ => rfl

/-- Row s of chunk g of the keys at lane d. -/
theorem ridx_scores (g : Fin 64) (t s : Fin 2048) (d : Fin 32) :
    ridx_main_v19 (ix3 g t s : S64x2048x2048.Idx) d = ix3 g s d := by
  funext a; match a with | ⟨0, _⟩ => rfl | ⟨1, _⟩ => rfl | ⟨2, _⟩ => rfl

/-- The score of query (i 0, i 1) against key s. -/
theorem lidx_attn (i : S64x2048x32.Idx) (s : Fin 2048) : lidx_main_v20 i s = ix3 (n0 := 64) (n1 := 2048) (n2 := 2048) (i 0) (i 1) s := by
  funext a; match a with | ⟨0, _⟩ => rfl | ⟨1, _⟩ => rfl | ⟨2, _⟩ => rfl

/-- Row s of chunk (i 0) of the values at lane (i 2). -/
theorem ridx_attn (i : S64x2048x32.Idx) (s : Fin 2048) : ridx_main_v20 i s = ix3 (n0 := 64) (n1 := 2048) (n2 := 32) (i 0) s (i 2) := by
  funext a; match a with | ⟨0, _⟩ => rfl | ⟨1, _⟩ => rfl | ⟨2, _⟩ => rfl

/-- One score: the inner product of a query row and a key row of the same chunk. -/
theorem scores_at (x0 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (g : Fin 64) (t s : Fin 2048) :
    val_main_v19 (F := Ideal) x0 x3 x4 x5 x6 (ix3 g t s)
      = ∑ d : Fin 32, val_main_v6 (F := Ideal) x0 x3 x4 (ix3 g t d) * val_main_v12 (F := Ideal) x0 x5 x6 (ix3 g s d) := by
  rw [val_main_v19_apply]
  simp only [lidx_scores, ridx_scores]

/-- The attention result: the values of a chunk weighted by the scores of a row, the scores formed first. -/
theorem scores_first (x0 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    val_main_v20 (F := Ideal) x0 x3 x4 x5 x6 x7 x8
      = fun i => coreScoresFirstAt (val_main_v6 (F := Ideal) x0 x3 x4) (val_main_v12 (F := Ideal) x0 x5 x6)
          (val_main_v18 (F := Ideal) x0 x7 x8) (i 0) (i 1) (i 2) := by
  funext i
  rw [val_main_v20_apply]
  unfold coreScoresFirstAt
  refine Finset.sum_congr rfl fun s _ => ?_
  rw [lidx_attn, ridx_attn]
  exact congrArg (· * val_main_v18 (F := Ideal) x0 x7 x8 (ix3 (i 0) s (i 2))) (scores_at x0 x3 x4 x5 x6 (i 0) (i 1) s)

/-! ## The head-averaged scores -/

/-- Splitting the leading axis 64 = 2·32 of the scores: entry (b, H, t, s) of the split array is entry (32·b + H, t, s). -/
theorem idx_split (i : S2x2048x2048.Idx) (H : Fin 32) :
    idx_main_v28 (idx_main_v29 i H) = ix3 (n0 := 64) (n1 := 2048) (n2 := 2048) (head (i 0) H) (i 1) (i 2) := by
  have h0 : (i 0).val < 2 := (i 0).isLt
  have h1 : (i 1).val < 2048 := (i 1).isLt
  have h2 : (i 2).val < 2048 := (i 2).isLt
  have hH : H.val < 32 := H.isLt
  funext a
  match a with
  | ⟨0, _⟩ =>
    refine Fin.ext ?_
    show ((((i 0).val * 32 + H.val) * 2048 + (i 1).val) * 2048 + (i 2).val) / 4194304 = (i 0).val * 32 + H.val
    omega
  | ⟨1, _⟩ =>
    refine Fin.ext ?_
    show ((((i 0).val * 32 + H.val) * 2048 + (i 1).val) * 2048 + (i 2).val) / 2048 % 2048 = (i 1).val
    omega
  | ⟨2, _⟩ =>
    refine Fin.ext ?_
    show ((((i 0).val * 32 + H.val) * 2048 + (i 1).val) * 2048 + (i 2).val) % 2048 = (i 2).val
    omega

/-- The second result: the scores summed over the 32 heads of a batch element, from the float zero, divided by the
    float 32. -/
theorem mean_ref (x0 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v31 (F := Ideal) x0 x3 x4 x5 x6
      = mean (val_main_v6 (F := Ideal) x0 x3 x4) (val_main_v12 (F := Ideal) x0 x5 x6) := by
  funext i
  rw [val_main_v31_apply, val_main_v30_apply, val_main_cst_0_apply, val_main_v29_apply, val_main_cst_apply]
  refine Eq.trans ?_ (mean_of_heads (val_main_v6 (F := Ideal) x0 x3 x4) (val_main_v12 (F := Ideal) x0 x5 x6) (i 0) (i 1) (i 2))
  refine congrArg (fun z => Ideal.div (Ideal.ofBits .f32 0x00000000#32 + z) (Ideal.ofBits .f32 0x42000000#32))
    (Finset.sum_congr rfl fun H _ => ?_)
  rw [val_main_v28_apply, idx_split]
  exact scores_at x0 x3 x4 x5 x6 (head (i 0) H) (i 1) (i 2)

end Cert.ReferenceIdeal.RefValue

end
-- ==== Proof.LibAllReal.lean ====
/-
  Vectors of extended reals all of whose entries are real numbers.

  At the ideal instance a float is an extended real.  Many algebraic identities (for example the
  expansion of a centred second moment) hold over the reals but fail at an infinity, so a proof
  that uses one must first know that the quantities in play are real numbers.  This file records,
  once and in general, that the operations a program is built from send real entries to real
  entries: constants of finite words, every pure re-indexing, the arithmetic operations, maximum,
  select, real powers, finite sums (reductions, contractions, accumulating scatters) and the
  quotient by a nonzero real.

  `IsReal x` says that the extended real `x` is (the image of) a real number; `AllReal v` says it
  of every entry of the family `v`.  The index type of a family is arbitrary, so the statements
  apply to the vectors `S.Idx → EReal` (that is, `FVec Ideal S φ`) of every shape `S`.
-/
import Mathlib.Tactic
import Idealize.ShloMosaic.PureOps.Ideal
import Idealize.ShloMosaic.PureOps.Ideal.Laws
import Idealize.ShloMosaic.PureOps.Contract
import Idealize.ShloMosaic.PureOps.ShapeOps

namespace Cert.Proof.AllReal

open Idealize.ShloMosaic
open scoped BigOperators

/-! ## One extended real -/

/-- The extended real `x` is (the image of) a real number. -/
def IsReal (x : EReal) : Prop := ∃ r : ℝ, x = (r : EReal)

/-- Every entry of the family `v` is a real number. -/
def AllReal {ι : Type*} (v : ι → EReal) : Prop := ∀ i, IsReal (v i)

/-- Unfolding: every entry is the image of some real. -/
theorem allReal_iff {ι : Type*} (v : ι → EReal) : AllReal v ↔ ∀ i, ∃ r : ℝ, v i = (r : EReal) := Iff.rfl

/-- The image of a real is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is neither infinity, and conversely. -/
theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | top => exact absurd rfl ht
    | coe r => exact ⟨r, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases max_choice x y with h | h <;> rw [h] <;> assumption

/-- The lesser of two reals is real: it is one of them. -/
theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) := IsReal.max hx hx.neg

/-- A real to a real power (`Ideal.pow`, which on two reals is `Real.rpow`) is real. -/
theorem IsReal.pow {x y : EReal} (hx : IsReal x) (hy : IsReal y) : IsReal (Ideal.pow x y) := by
  obtain ⟨a, rfl⟩ := hx; obtain ⟨b, rfl⟩ := hy; exact ⟨Real.rpow a b, Ideal.pow_coe_coe a b⟩

/-- The quotient (`Ideal.div`) of a real by a NONZERO real is real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- Either branch of a choice between two reals is real. -/
theorem IsReal.ite {p : Prop} [Decidable p] {x y : EReal} (hx : IsReal x) (hy : IsReal y) :
    IsReal (if p then x else y) := by
  split_ifs <;> assumption

/-- A finite sum of reals is real. -/
theorem isReal_sum {κ : Type*} (s : Finset κ) (f : κ → EReal) (h : ∀ k ∈ s, IsReal (f k)) :
    IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-! ## Finite words -/

/-- An IEEE-style word whose exponent field is not all ones denotes a real number (a zero, a
    subnormal or a normal: a dyadic rational). -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

/-- A 32-bit float word whose exponent field is not `255` denotes a real number. -/
theorem isReal_ofBits_f32 (b : BitVec 32) (h : (b.extractLsb' 23 8).toNat ≠ 255) :
    IsReal (Ideal.ofBits .f32 b) :=
  isReal_ieee 8 23 b h

/-- A bfloat16 word whose exponent field is not `255` denotes a real number. -/
theorem isReal_ofBits_bf16 (b : BitVec 16) (h : (b.extractLsb' 7 8).toNat ≠ 255) :
    IsReal (Ideal.ofBits .bf16 b) :=
  isReal_ieee 8 7 b h

/-- The word of `0.0`. -/
theorem isReal_f32_zero : IsReal (Ideal.ofBits .f32 0x00000000#32) := isReal_ofBits_f32 _ (by decide)
/-- The word of `1.0`. -/
theorem isReal_f32_one : IsReal (Ideal.ofBits .f32 0x3F800000#32) := isReal_ofBits_f32 _ (by decide)
/-- The word of `-0.5`. -/
theorem isReal_f32_negHalf : IsReal (Ideal.ofBits .f32 0xBF000000#32) := isReal_ofBits_f32 _ (by decide)
/-- The word of `2.0`. -/
theorem isReal_f32_two : IsReal (Ideal.ofBits .f32 0x40000000#32) := isReal_ofBits_f32 _ (by decide)
/-- The word of `50000.0`. -/
theorem isReal_f32_50000 : IsReal (Ideal.ofBits .f32 0x47435000#32) := isReal_ofBits_f32 _ (by decide)
/-- The word `0x3C23D70A` (the float nearest `0.01`). -/
theorem isReal_f32_3C23D70A : IsReal (Ideal.ofBits .f32 0x3C23D70A#32) := isReal_ofBits_f32 _ (by decide)
/-- The word `0x3727C5AC` (the float nearest `1e-5`). -/
theorem isReal_f32_3727C5AC : IsReal (Ideal.ofBits .f32 0x3727C5AC#32) := isReal_ofBits_f32 _ (by decide)

/-! ## Constants and splats -/

/-- The splat of one real value is all real. -/
theorem allReal_broadcast (S : Shape) {x : EReal} (hx : IsReal x) : AllReal (broadcast S x) :=
  fun _ => hx

/-- A constant vector of a word that denotes a real is all real. -/
theorem allReal_constant (S : Shape) (φ : FTy) (w : BitVec φ.bits) (h : IsReal (Ideal.ofBits φ w)) :
    AllReal (constant (F := Ideal) S φ w) :=
  fun _ => h

/-- A constant `f32` vector of a finite word is all real. -/
theorem allReal_constant_f32 (S : Shape) (w : BitVec 32) (h : (w.extractLsb' 23 8).toNat ≠ 255) :
    AllReal (constant (F := Ideal) S .f32 w) :=
  allReal_constant S .f32 w (isReal_ofBits_f32 w h)

/-- The splat of the scalar constant of a finite `f32` word is all real. -/
theorem allReal_broadcast_ofBits_f32 (S : Shape) (w : BitVec 32) (h : (w.extractLsb' 23 8).toNat ≠ 255) :
    AllReal (broadcast S (Scalar.ofBits (F := Ideal) .f32 w)) :=
  allReal_broadcast S (isReal_ofBits_f32 w h)

/-! ## Re-indexings -/

/-- THE re-indexing lemma: if every entry of `out` is some entry of `inp`, and `inp` is all real,
    so is `out`. -/
theorem allReal_of_reindex {ι κ : Type*} {inp : κ → EReal} {out : ι → EReal}
    (h : ∀ i, ∃ j, out i = inp j) (hin : AllReal inp) : AllReal out := fun i => by
  obtain ⟨j, hj⟩ := h i
  rw [hj]; exact hin j

/-- Composition with any index map. -/
theorem allReal_comp {ι κ : Type*} {inp : κ → EReal} (f : ι → κ) (hin : AllReal inp) :
    AllReal (fun i => inp (f i)) :=
  allReal_of_reindex (fun i => ⟨f i, rfl⟩) hin

/-- `stablehlo.gather`: each result entry is an operand entry. -/
theorem allReal_gather {s si t : Shape} {w : Nat} (d : GatherDims s si t) (x : s.Idx → EReal) (idx : IVec si w)
    (hx : AllReal x) : AllReal (Host.gather d x idx) :=
  allReal_of_reindex (fun j => ⟨d.operandIdx j idx, rfl⟩) hx

/-- `stablehlo.broadcast_in_dim`. -/
theorem allReal_broadcastInDim {s : Shape} (t : Shape) (dims : Fin s.rank → Fin t.rank)
    (h : s.BroadcastsInDim t dims) (x : s.Idx → EReal) (hx : AllReal x) :
    AllReal (broadcastInDim t dims h x) :=
  allReal_of_reindex (inp := x) (fun _ => ⟨_, rfl⟩) hx

/-- `vector.broadcast` of a vector. -/
theorem allReal_broadcastTo {s : Shape} (t : Shape) (x : s.Idx → EReal) (h : s.Broadcasts t) (hx : AllReal x) :
    AllReal (broadcastTo t x h) :=
  allReal_of_reindex (inp := x) (fun _ => ⟨_, rfl⟩) hx

/-- `vector.shape_cast` (and the host's `reshape`, which is the same re-indexing). -/
theorem allReal_shapeCast {s : Shape} (t : Shape) (x : s.Idx → EReal) (h : s.ShapeCasts t) (hx : AllReal x) :
    AllReal (shapeCast t x h) :=
  allReal_of_reindex (fun j => ⟨Shape.reshapeEquiv h j, rfl⟩) hx

/-- `tpu.transpose`. -/
theorem allReal_transpose {s : Shape} (t : Shape) (perm : List (Fin s.rank)) (x : s.Idx → EReal)
    (h : s.Transposes perm t) (hx : AllReal x) : AllReal (transpose t perm x h) :=
  allReal_of_reindex (fun j => ⟨h.src j, rfl⟩) hx

/-- A widening format change is the identity at the ideal instance. -/
theorem allReal_extf {s : Shape} {φ : FTy} (ψ : FTy) (x : FVec Ideal s φ) (h : φ.bits < ψ.bits) (hx : AllReal x) :
    AllReal (extf ψ x h) :=
  fun i => hx i

/-- A narrowing format change is the identity at the ideal instance. -/
theorem allReal_truncf {s : Shape} {φ : FTy} (ψ : FTy) (x : FVec Ideal s φ) (h : ψ.bits < φ.bits) (hx : AllReal x) :
    AllReal (truncf ψ x h) :=
  fun i => hx i

/-! ## Elementwise arithmetic -/

section Elementwise
variable {s : Shape} {φ : FTy}

/-- `mulf`. -/
theorem allReal_mulf {x y : FVec Ideal s φ} (hx : AllReal x) (hy : AllReal y) : AllReal (mulf x y) :=
  fun i => (hx i).mul (hy i)

/-- `addf`. -/
theorem allReal_addf {x y : FVec Ideal s φ} (hx : AllReal x) (hy : AllReal y) : AllReal (addf x y) :=
  fun i => (hx i).add (hy i)

/-- `subf`. -/
theorem allReal_subf {x y : FVec Ideal s φ} (hx : AllReal x) (hy : AllReal y) : AllReal (subf x y) :=
  fun i => (hx i).sub (hy i)

/-- `maximumf` (the host's `stablehlo.maximum` is printed with the same function). -/
theorem allReal_maximumf {x y : FVec Ideal s φ} (hx : AllReal x) (hy : AllReal y) : AllReal (maximumf x y) :=
  fun i => (hx i).max (hy i)

/-- `minimumf`. -/
theorem allReal_minimumf {x y : FVec Ideal s φ} (hx : AllReal x) (hy : AllReal y) : AllReal (minimumf x y) :=
  fun i => (hx i).min (hy i)

/-- `negf`. -/
theorem allReal_negf {x : FVec Ideal s φ} (hx : AllReal x) : AllReal (negf x) :=
  fun i => (hx i).neg

/-- The host's `negate`. -/
theorem allReal_host_negf {x : FVec Ideal s φ} (hx : AllReal x) : AllReal (Host.negf x) :=
  fun i => (hx i).neg

/-- `absf`. -/
theorem allReal_absf {x : FVec Ideal s φ} (hx : AllReal x) : AllReal (absf x) :=
  fun i => (hx i).abs

/-- The host's `abs`. -/
theorem allReal_host_absf {x : FVec Ideal s φ} (hx : AllReal x) : AllReal (Host.absf x) :=
  fun i => (hx i).abs

/-- `arith.select`, lane by lane: whichever branch is taken is real. -/
theorem allReal_select (c : IVec s 1) {a b : s.Idx → EReal} (ha : AllReal a) (hb : AllReal b) :
    AllReal (select c a b) := fun i => by
  unfold Idealize.ShloMosaic.select Idealize.ShloMosaic.Scalar.select
  exact (ha i).ite (hb i)

/-- The kernel's `math.powf`. -/
theorem allReal_powf {x y : FVec Ideal s φ} (hx : AllReal x) (hy : AllReal y) : AllReal (powf x y) :=
  fun i => (hx i).pow (hy i)

/-- The host's `stablehlo.power`. -/
theorem allReal_host_powf {x y : FVec Ideal s φ} (hx : AllReal x) (hy : AllReal y) : AllReal (Host.powf x y) :=
  fun i => (hx i).pow (hy i)

/-- The kernel's `arith.divf` by a vector with no zero entry. -/
theorem allReal_divf {x y : FVec Ideal s φ} (hx : AllReal x) (hy : AllReal y) (h0 : ∀ i, y i ≠ 0) :
    AllReal (divf x y) :=
  fun i => (hx i).div (hy i) (h0 i)

/-- The host's `stablehlo.divide` by a vector with no zero entry. -/
theorem allReal_host_divf {x y : FVec Ideal s φ} (hx : AllReal x) (hy : AllReal y) (h0 : ∀ i, y i ≠ 0) :
    AllReal (Host.divf x y) :=
  fun i => (hx i).div (hy i) (h0 i)

end Elementwise

/-! ## Finite sums: scatters, contractions, reductions -/

/-- The host's accumulating scatter: each operand entry plus a finite sum of update entries. -/
theorem allReal_scatterAdd {s si u : Shape} {w : Nat} {φ : FTy} (d : ScatterDims s si u) (x : FVec Ideal s φ)
    (idx : IVec si w) (upd : FVec Ideal u φ) (hx : AllReal x) (hu : AllReal upd) :
    AllReal (Host.scatterAdd d x idx upd) := fun i => by
  change IsReal (x i + Finset.sum _ _)
  exact (hx i).add (isReal_sum _ _ fun j _ => hu j)

/-- `tpu.matmul`: the accumulator plus a finite sum of products. -/
theorem allReal_matmul {sl sr so : Shape} {φ₁ φ₂ : FTy} (d : DotDims sl sr so) (prec : Option ContractPrecision)
    (lhs : FVec Ideal sl φ₁) (rhs : FVec Ideal sr φ₂) (acc : FVec Ideal so .f32)
    (hl : AllReal lhs) (hr : AllReal rhs) (ha : AllReal acc) : AllReal (matmul d prec lhs rhs acc) := fun j => by
  change IsReal (acc j + ∑ k : d.contr.Idx, lhs (d.lhsIdx j k) * rhs (d.rhsIdx j k))
  exact (ha j).add (isReal_sum _ _ fun k _ => (hl _).mul (hr _))

/-- `tpu.matmul` into the zero accumulator. -/
theorem allReal_matmul_zero {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (matmul d prec lhs rhs (constant so .f32 0x00000000#32)) :=
  allReal_matmul d prec lhs rhs _ hl hr (allReal_constant so .f32 _ isReal_f32_zero)

/-- The host's `dot_general`: a finite sum of products. -/
theorem allReal_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := fun j => by
  have h := Ideal.dotGeneral_apply d prec .single lhs rhs j
  change IsReal (FloatOps.dotGeneral d prec .single lhs rhs j)
  rw [h]
  exact isReal_sum _ _ fun k _ => (hl _).mul (hr _)

/-- `vector.multi_reduction <add>`: a finite sum of source entries. -/
theorem allReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hs : AllReal src) : AllReal (multiReduction .add axes t src acc h hφ hacc) := fun j => by
  have e : multiReduction .add axes t src acc h hφ hacc j = Ideal.reduceAdd h src j := rfl
  rw [e]
  unfold Ideal.reduceAdd
  exact isReal_sum _ _ fun i _ => hs i

/-- The host's float `stablehlo.reduce … add`: the initial value plus a finite sum of operand entries. -/
theorem allReal_host_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := fun j => by
  change IsReal (init _ + Finset.sum _ _)
  exact (hi _).add (isReal_sum _ _ fun i _ => hx i)

end Cert.Proof.AllReal
-- ==== Proof.FiniteInputs.lean ====
/-
  Real inputs stay real.

  The precondition of the certificate says that every entry of every float input has absolute value below plus
  infinity.  At the ideal instance a float is an extended real, so the precondition says each entry is a real number.
  This file derives that fact from the printed predicate, and records that the maps of the specification (the affine
  map and the unnormalised attention) send arrays of reals to arrays of reals: each entry is a finite sum of products of
  reals, plus a real.

  The printed predicate is, for each of the eleven arrays x, the conjunction over all entries of |x| < +∞ (a reduction
  by "and" of the entrywise comparison of max x (−x) with the splat of the word 0x7F800000, which denotes +∞), and the
  eleven one-bit results joined by "and".  A conjunction that is 1 has every conjunct 1; a reduction by "and" that is 1
  met only 1s; and max x (−x) < ⊤ fails at x = ⊤ and at x = ⊥, so it leaves the reals.
-/
import Mathlib.Tactic
import Idealize.ShloMosaic.PureOps.Ideal
import Idealize.ShloMosaic.PureOps.Ideal.Laws
import Idealize.ShloMosaic.Lib.ValueIdx
import Idealize.ShloMosaic.Lib.ReduceAll
import proofs.«122323_j2680059593303_2_alg».proof.Defs
import proofs.«122323_j2680059593303_2_alg».proof.Proof.LibAllReal
import proofs.«122323_j2680059593303_2_alg».proof.Proof.AttentionSpec

namespace Cert.Proof.Finite

open Idealize.ShloMosaic Idealize.ShloMosaic.ValueIdx Idealize.SL.Sem
open Cert.Proof.AllReal
open Cert.Pre_finite_inputs

/-! ## The maps of the specification keep reality -/

/-- x·Wᵀ + b of real arrays is real: each entry is a finite sum of products of reals, plus a real. -/
theorem affine_real (x : Cert.Attention.Tok.Idx → EReal) (W : Cert.Attention.Wt.Idx → EReal)
    (b : Cert.Attention.Bs.Idx → EReal) (hx : AllReal x) (hW : AllReal W) (hb : AllReal b) :
    AllReal (Cert.Attention.affine x W b) := fun i => by
  unfold Cert.Attention.affine Cert.Attention.affineAt
  exact (isReal_sum _ _ fun k _ => (hx _).mul (hW _)).add (hb _)

/-- The unnormalised attention of real arrays is real: each entry is a finite sum of products of a real with a finite
    sum of products of reals. -/
theorem core_real (Q K V : Cert.Attention.Hd.Idx → EReal) (hQ : AllReal Q) (hK : AllReal K) (hV : AllReal V) :
    AllReal (Cert.Attention.core Q K V) := fun i => by
  unfold Cert.Attention.core Cert.Attention.coreAt
  exact isReal_sum _ _ fun d _ => (hQ _).mul (isReal_sum _ _ fun s _ => (hK _).mul (hV _))

/-! ## The precondition read back -/

/-- The shape with no axes has one index. -/
instance : Subsingleton S_.Idx := ⟨fun a b => funext fun d => d.elim0⟩

/-- An extended real whose absolute value max x (−x) is below the float +∞ (the word 0x7F800000) is a real number:
    at ⊥ and at ⊤ the absolute value is ⊤, which is not below ⊤. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- One conjunct of the predicate: if "every entry of |x| is below +∞", a reduction by "and" over all axes from the
    constant 1, is 1, then every entry of x is a real number. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) : AllReal x := fun i => by
  have h1 := Host.reduce_andi_all _ _ hr hu ix0 e i
  exact isReal_of_abs_lt_inf (x i) h1

/-- An "and" of two one-bit scalars that is 1 has both 1. -/
theorem andi_ix0 (x y : IVec S_ 1) (h : andi x y ix0 = 1#1) : x ix0 = 1#1 ∧ y ix0 = 1#1 :=
  IntOp.andi_eq_one.1 h

/-- The printed predicate, of arbitrary arrays: if it is 1 then every entry of the first array and of the eight
    weight and bias arrays is a real number.  (The second and third arrays are real too, by the same argument; the statement leaves them
    out.) -/
theorem reals_of_fn [Cert.Pre_finite_inputs.Facts]
    (a0 a1 a2 : FVec Ideal S2x2048x1024 .f32) (a3 : FVec Ideal S1024x1024 .f32) (a4 : FVec Ideal S1024 .f32)
    (a5 : FVec Ideal S1024x1024 .f32) (a6 : FVec Ideal S1024 .f32) (a7 : FVec Ideal S1024x1024 .f32)
    (a8 : FVec Ideal S1024 .f32) (a9 : FVec Ideal S1024x1024 .f32) (a10 : FVec Ideal S1024 .f32)
    (h : Cert.Pre_finite_inputs.fn (F := Ideal) a0 a1 a2 a3 a4 a5 a6 a7 a8 a9 a10 = fun _ => 1#1) :
    AllReal a0 ∧ AllReal a3 ∧ AllReal a4 ∧ AllReal a5 ∧ AllReal a6 ∧ AllReal a7 ∧ AllReal a8 ∧ AllReal a9
      ∧ AllReal a10 := by
  have e := congrFun h ix0
  -- the eleven conjuncts, joined left to right: ((… (c0 ∧ c1) ∧ c2) … ) ∧ c10
  dsimp only [fn, fn_part1, fn_part2, fn_part3] at e
  obtain ⟨e, h10⟩ := andi_ix0 _ _ e
  obtain ⟨e, h9⟩ := andi_ix0 _ _ e
  obtain ⟨e, h8⟩ := andi_ix0 _ _ e
  obtain ⟨e, h7⟩ := andi_ix0 _ _ e
  obtain ⟨e, h6⟩ := andi_ix0 _ _ e
  obtain ⟨e, h5⟩ := andi_ix0 _ _ e
  obtain ⟨e, h4⟩ := andi_ix0 _ _ e
  obtain ⟨e, h3⟩ := andi_ix0 _ _ e
  obtain ⟨e, -⟩ := andi_ix0 _ _ e
  obtain ⟨h0, -⟩ := andi_ix0 _ _ e
  exact ⟨allReal_of_all a0 _ _ _ h0, allReal_of_all a3 _ _ _ h3, allReal_of_all a4 _ _ _ h4,
    allReal_of_all a5 _ _ _ h5, allReal_of_all a6 _ _ _ h6, allReal_of_all a7 _ _ _ h7,
    allReal_of_all a8 _ _ _ h8, allReal_of_all a9 _ _ _ h9, allReal_of_all a10 _ _ _ h10⟩

/-- The certificate's precondition, on each device: the first argument array and the eight weight and bias arrays
    hold real numbers. -/
theorem reals_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10)) :=
  reals_of_fn _ _ _ _ _ _ _ _ _ _ _ (h c)

end Cert.Proof.Finite
-- ==== Proof.ReferenceLayer.lean ====
/-
  The reference's two results as the layer's functions of its arguments, the same terms the kernel's results are.

  The reference forms the scores first and multiplies by the values afterwards; the kernel multiplies keysᵀ by values
  first.  The two orders agree when Q, K, V are real, and they are: each is a raw view of an affine map of real
  arrays, and sums and products of reals are real.  The averaged scores need no finiteness.
-/
import proofs.«122323_j2680059593303_2_alg».proof.Proof.ReferenceValue
import proofs.«122323_j2680059593303_2_alg».proof.Proof.FiniteInputs

noncomputable section

namespace Cert.ReferenceIdeal.RefValue

open Cert.ReferenceIdeal Cert.ReferenceIdeal.Gen Cert.ReferenceIdeal.Read Cert.Attention
open Idealize.ShloMosaic Idealize.ShloMosaic.ValueIdx
open Cert.Proof.AllReal

/-- A projection read per head: the raw view of the affine map of the input read as a token matrix. -/
theorem heads_q (x0 : (⟨S2x2048x1024, .f32⟩ : BufTy).Contents (Elt Ideal)) (x3 : (⟨S1024x1024, .f32⟩ : BufTy).Contents (Elt Ideal)) (x4 : (⟨S1024, .f32⟩ : BufTy).Contents (Elt Ideal)) :
    val_main_v6 (F := Ideal) x0 x3 x4 = (shapeCast S64x2048x32 (affine (shapeCast S4096x1024 x0 shapeCasts_S2x2048x1024_S4096x1024) x3 x4) shapeCasts_S4096x1024_S64x2048x32) := by
  unfold val_main_v6
  rw [proj_q]
  rfl

theorem heads_k (x0 : (⟨S2x2048x1024, .f32⟩ : BufTy).Contents (Elt Ideal)) (x5 : (⟨S1024x1024, .f32⟩ : BufTy).Contents (Elt Ideal)) (x6 : (⟨S1024, .f32⟩ : BufTy).Contents (Elt Ideal)) :
    val_main_v12 (F := Ideal) x0 x5 x6 = (shapeCast S64x2048x32 (affine (shapeCast S4096x1024 x0 shapeCasts_S2x2048x1024_S4096x1024) x5 x6) shapeCasts_S4096x1024_S64x2048x32) := by
  unfold val_main_v12
  rw [proj_k]
  rfl

theorem heads_v (x0 : (⟨S2x2048x1024, .f32⟩ : BufTy).Contents (Elt Ideal)) (x7 : (⟨S1024x1024, .f32⟩ : BufTy).Contents (Elt Ideal)) (x8 : (⟨S1024, .f32⟩ : BufTy).Contents (Elt Ideal)) :
    val_main_v18 (F := Ideal) x0 x7 x8 = (shapeCast S64x2048x32 (affine (shapeCast S4096x1024 x0 shapeCasts_S2x2048x1024_S4096x1024) x7 x8) shapeCasts_S4096x1024_S64x2048x32) := by
  unfold val_main_v18
  rw [proj_v]
  rfl

/-- Such a view of real arrays is real. -/
theorem heads_real (x0 : S2x2048x1024.Idx → EReal) (W : S1024x1024.Idx → EReal) (b : S1024.Idx → EReal)
    (h0 : AllReal x0) (hW : AllReal W) (hb : AllReal b) : AllReal (shapeCast S64x2048x32 (affine (shapeCast S4096x1024 x0 shapeCasts_S2x2048x1024_S4096x1024) W b) shapeCasts_S4096x1024_S64x2048x32) :=
  allReal_shapeCast _ _ _ (Cert.Proof.Finite.affine_real _ W b (allReal_shapeCast _ _ _ h0) hW hb)

/-- The attention result, for real inputs. -/
theorem attn_ref (x0 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (h0 : AllReal x0) (h3 : AllReal x3) (h4 : AllReal x4) (h5 : AllReal x5) (h6 : AllReal x6) (h7 : AllReal x7) (h8 : AllReal x8) :
    val_main_v27 (F := Ideal) x0 x3 x4 x5 x6 x7 x8 x9 x10
      = shapeCast S2x2048x1024 (affine (shapeCast S4096x1024 (core (shapeCast S64x2048x32 (affine (shapeCast S4096x1024 x0 shapeCasts_S2x2048x1024_S4096x1024) x3 x4) shapeCasts_S4096x1024_S64x2048x32) (shapeCast S64x2048x32 (affine (shapeCast S4096x1024 x0 shapeCasts_S2x2048x1024_S4096x1024) x5 x6) shapeCasts_S4096x1024_S64x2048x32) (shapeCast S64x2048x32 (affine (shapeCast S4096x1024 x0 shapeCasts_S2x2048x1024_S4096x1024) x7 x8) shapeCasts_S4096x1024_S64x2048x32)) shapeCasts_S64x2048x32_S4096x1024) x9 x10) shapeCasts_S4096x1024_S2x2048x1024 := by
  unfold val_main_v27
  rw [proj_o]
  unfold val_main_v21
  rw [scores_first, heads_q, heads_k, heads_v]
  have e : (fun i : S64x2048x32.Idx => coreScoresFirstAt (shapeCast S64x2048x32 (affine (shapeCast S4096x1024 x0 shapeCasts_S2x2048x1024_S4096x1024) x3 x4) shapeCasts_S4096x1024_S64x2048x32) (shapeCast S64x2048x32 (affine (shapeCast S4096x1024 x0 shapeCasts_S2x2048x1024_S4096x1024) x5 x6) shapeCasts_S4096x1024_S64x2048x32) (shapeCast S64x2048x32 (affine (shapeCast S4096x1024 x0 shapeCasts_S2x2048x1024_S4096x1024) x7 x8) shapeCasts_S4096x1024_S64x2048x32) (i 0) (i 1) (i 2))
      = core (shapeCast S64x2048x32 (affine (shapeCast S4096x1024 x0 shapeCasts_S2x2048x1024_S4096x1024) x3 x4) shapeCasts_S4096x1024_S64x2048x32) (shapeCast S64x2048x32 (affine (shapeCast S4096x1024 x0 shapeCasts_S2x2048x1024_S4096x1024) x5 x6) shapeCasts_S4096x1024_S64x2048x32) (shapeCast S64x2048x32 (affine (shapeCast S4096x1024 x0 shapeCasts_S2x2048x1024_S4096x1024) x7 x8) shapeCasts_S4096x1024_S64x2048x32) :=
    funext fun i => coreScoresFirstAt_eq _ _ _ (heads_real x0 x3 x4 h0 h3 h4) (heads_real x0 x5 x6 h0 h5 h6) (heads_real x0 x7 x8 h0 h7 h8) (i 0) (i 1) (i 2)
  rw [e]

/-- The averaged scores. -/
theorem avg_ref (x0 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    val_main_v31 (F := Ideal) x0 x3 x4 x5 x6 = mean (shapeCast S64x2048x32 (affine (shapeCast S4096x1024 x0 shapeCasts_S2x2048x1024_S4096x1024) x3 x4) shapeCasts_S4096x1024_S64x2048x32) (shapeCast S64x2048x32 (affine (shapeCast S4096x1024 x0 shapeCasts_S2x2048x1024_S4096x1024) x5 x6) shapeCasts_S4096x1024_S64x2048x32) := by
  rw [mean_ref, heads_q, heads_k]

end Cert.ReferenceIdeal.RefValue

end
-- ==== Proof.lean ====
/-
  The five claims of this certificate.

  Both programs compute one attention layer.  With x the [2,2048,1024] input read as a [4096,1024] token matrix, the
  three projections Q, K, V are x·Wᵀ + b for their own weights and biases, each then read as a [64,2048,32] array
  through the raw row-major view of its flat contents (chunk 32·b + H is what the layer calls head H of batch element
  b).  The first result is (core(Q,K,V) read back as a token matrix)·Woᵀ + bo, read as [2,2048,1024], where
  core(Q,K,V)(g,t,e) = Σ_s (Σ_d Q(g,t,d)·K(g,s,d))·V(g,s,e); the second is the mean over the 32 heads of a batch
  element of the scores Σ_d Q·K.

  The kernel computes the projections in blocks of 256 rows, the mean of the scores as one inner product over the
  1024 concatenated lanes scaled by the float 2⁻⁵, the core per chunk as Q·(Kᵀ·V), and the output projection in blocks
  of 1024 rows; the reference computes every stage whole, the scores first.  Block by block each kernel region leaves
  the whole-array function of what it found; the raw views are applied to equal arrays on both sides; the sum over
  1024 lanes is the sum over 32 heads of 32 lanes and x·2⁻⁵ = x/32 on every extended real; Q·(Kᵀ·V) = (Q·Kᵀ)·V on real
  entries, and the entries are real because the inputs are finite.  A change of float format is the identity on
  extended reals, so the kernel's narrowing of operands and results does not appear.

  The frames of the two kernel programs are the generated ones; the reference's frame is its generated run with the
  results dropped; the idealization rewrote nothing, so the preservation claim is trivial.
-/
import proofs.«122323_j2680059593303_2_alg».proof.Defs
import proofs.«122323_j2680059593303_2_alg».proof.Proof.Gen.Kernel
import proofs.«122323_j2680059593303_2_alg».proof.Proof.Gen.Kernel.Skeleton
import proofs.«122323_j2680059593303_2_alg».proof.Proof.Gen.Kernel.Launch
import proofs.«122323_j2680059593303_2_alg».proof.Proof.Gen.Kernel.Points
import proofs.«122323_j2680059593303_2_alg».proof.Proof.Gen.Kernel.Frame
import proofs.«122323_j2680059593303_2_alg».proof.Proof.Gen.KernelIdeal
import proofs.«122323_j2680059593303_2_alg».proof.Proof.Gen.KernelIdeal.Skeleton
import proofs.«122323_j2680059593303_2_alg».proof.Proof.Gen.KernelIdeal.Launch
import proofs.«122323_j2680059593303_2_alg».proof.Proof.Gen.KernelIdeal.Points
import proofs.«122323_j2680059593303_2_alg».proof.Proof.Gen.KernelIdeal.Frame
import proofs.«122323_j2680059593303_2_alg».proof.Proof.Gen.ReferenceIdeal
import proofs.«122323_j2680059593303_2_alg».proof.Proof.Gen.ReferenceIdeal.Run
import proofs.«122323_j2680059593303_2_alg».proof.Proof.Gen.ReferenceIdeal.Read
import proofs.«122323_j2680059593303_2_alg».proof.Proof.Gen.Pre_finite_inputs
import proofs.«122323_j2680059593303_2_alg».proof.Proof.KernelValue
import proofs.«122323_j2680059593303_2_alg».proof.Proof.ReferenceLayer
import proofs.«122323_j2680059593303_2_alg».proof.Proof.FiniteInputs
import Idealize.ShloMosaic.Adequacy
import Idealize.ShloMosaic.Init

set_option maxRecDepth 16384

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, finite by the precondition, both idealized programs end with the layer's
    two results. -/
theorem algebraic : Cert.algebraic_KernelIdeal_ReferenceIdeal := by
  intro m ρ m' ρ' hpre hagree
  refine ⟨_, _, Cert.KernelIdeal.Fold.run_layer m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10⟩ := hagree c
  obtain ⟨r0, r3, r4, r5, r6, r7, r8, r9, r10⟩ := Cert.Proof.Finite.reals_of_pre m hpre c
  refine ⟨(h c).1.trans ?_, (h c).2.1.trans ?_, (h c).2.2⟩
  · rw [e0, e3, e4, e5, e6, e7, e8, e9, e10]
    exact (Cert.ReferenceIdeal.Read.val_main_v27_eq (F := Ideal) _ _ _ _ _ _ _ _ _).trans
      ((Cert.ReferenceIdeal.RefValue.attn_ref _ _ _ _ _ _ _ _ _ r0 r3 r4 r5 r6 r7 r8).trans rfl)
  · rw [e0, e3, e4, e5, e6]
    exact (Cert.ReferenceIdeal.Read.val_main_v31_eq (F := Ideal) _ _ _ _ _).trans
      ((Cert.ReferenceIdeal.RefValue.avg_ref _ _ _ _ _).trans rfl)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
